-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S_ : Shape := ⟨0, ![]⟩

class Facts : Prop where
  bcast_S_S512x16384 : S_.BroadcastsInDim S512x16384 (![] : Fin 0 → Fin S512x16384.rank)
  reducesTo_S512x16384_S_d0_1 : S512x16384.ReducesTo [0, 1] S_
  h_S_ : 0 < S_.numel
  bcast_S_S512x16384x2 : S_.BroadcastsInDim S512x16384x2 (![] : Fin 0 → Fin S512x16384x2.rank)
  reducesTo_S512x16384x2_S_d0_1_2 : S512x16384x2.ReducesTo [0, 1, 2] S_
  bcast_S_S16384x2 : S_.BroadcastsInDim S16384x2 (![] : Fin 0 → Fin S16384x2.rank)
  reducesTo_S16384x2_S_d0_1 : S16384x2.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S512x16384 .f32) (main_arg1 : FVec F S512x16384x2 .f32) (main_arg2 : FVec F S16384x2 .f32) (main_arg3 : FVec F S16384 .f32) (main_arg4 : FVec F S16384 .f32) : IVec S_ 1 :=
  let main_v0 : FVec F S512x16384 .f32 := Host.absf main_arg0
  let main_cst : FVec F S_ .f32 := constant S_ .f32 0x7F800000#32
  let main_v1 : FVec F S512x16384 .f32 := broadcastInDim S512x16384 ![] bcast_S_S512x16384 main_cst
  let main_v2 : IVec S512x16384 1 := cmpf .olt main_v0 main_v1
  let main_c : IVec S_ 1 := constantI S_ 1 1#1
  let main_v3 : IVec S_ 1 := (fun x v => Host.reduce IntOp.andi x v reducesTo_S512x16384_S_d0_1 h_S_) main_v2 main_c
  let main_v4 : FVec F S512x16384x2 .f32 := Host.absf main_arg1
  let main_cst_0 : FVec F S_ .f32 := constant S_ .f32 0x7F800000#32
  let main_v5 : FVec F S512x16384x2 .f32 := broadcastInDim S512x16384x2 ![] bcast_S_S512x16384x2 main_cst_0
  let main_v6 : IVec S512x16384x2 1 := cmpf .olt main_v4 main_v5
  let main_c_1 : IVec S_ 1 := constantI S_ 1 1#1
  let main_v7 : IVec S_ 1 := (fun x v => Host.reduce IntOp.andi x v reducesTo_S512x16384x2_S_d0_1_2 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S2x512x16384 : Shape := ⟨3, ![2, 512, 16384]⟩
abbrev S2x16384 : Shape := ⟨2, ![2, 16384]⟩
abbrev S2x32x16384 : Shape := ⟨3, ![2, 32, 16384]⟩
abbrev S32x16384 : Shape := ⟨2, ![32, 16384]⟩
abbrev S1x32x16384 : Shape := ⟨3, ![1, 32, 16384]⟩
abbrev S1x16384 : Shape := ⟨2, ![1, 16384]⟩
abbrev S_ : Shape := ⟨0, ![]⟩
abbrev S512x16384x1 : Shape := ⟨3, ![512, 16384, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 57
  | .vmem => 8
  | .smem => 0
  | _ => 0

abbrev bufTy : (tb : Table) → Fin (tcTables nBuf tb) → BufTy
  | .hbm, ⟨0, _⟩ => ⟨S512x16384, .f32⟩
  | .hbm, ⟨1, _⟩ => ⟨S512x16384x2, .f32⟩
  | .hbm, ⟨2, _⟩ => ⟨S16384x2, .f32⟩
  | .hbm, ⟨3, _⟩ => ⟨S16384, .f32⟩
  | .hbm, ⟨4, _⟩ => ⟨S16384, .f32⟩
  | .hbm, ⟨5, _⟩ => ⟨S2x512x16384, .f32⟩
  | .hbm, ⟨6, _⟩ => ⟨S2x16384, .f32⟩
  | .hbm, ⟨7, _⟩ => ⟨S512x16384, .i32⟩
  | .hbm, ⟨8, _⟩ => ⟨S512x16384, .i32⟩
  | .hbm, ⟨9, _⟩ => ⟨S1x16384, .f32⟩
  | .hbm, ⟨10, _⟩ => ⟨S512x16384, .f32⟩
  | .hbm, ⟨11, _⟩ => ⟨S_, .i32⟩
  | .hbm, ⟨12, _⟩ => ⟨S512x16384, .i32⟩
  | .hbm, ⟨13, _⟩ => ⟨S512x16384, .i1⟩
  | .hbm, ⟨14, _⟩ => ⟨S_, .i32⟩
  | .hbm, ⟨15, _⟩ => ⟨S512x16384, .i32⟩
  | .hbm, ⟨16, _⟩ => ⟨S512x16384, .i32⟩
  | .hbm, ⟨17, _⟩ => ⟨S512x16384, .i32⟩
  | .hbm, ⟨18, _⟩ => ⟨S512x16384x1, .i32⟩
  | .hbm, ⟨19, _⟩ => ⟨S1, .i32⟩
  | .hbm, ⟨20, _⟩ => ⟨S_, .i32⟩
  | .hbm, ⟨21, _⟩ => ⟨S512x16384x1, .i32⟩
  | .hbm, ⟨22, _⟩ => ⟨S512x16384x1, .i1⟩
  | .hbm, ⟨23, _⟩ => ⟨S1x1x1, .i32⟩
  | .hbm, ⟨24, _⟩ => ⟨S512x16384x1, .i32⟩
  | .hbm, ⟨25, _⟩ => ⟨S512x16384x1, .i1⟩
  | .hbm, ⟨26, _⟩ => ⟨S512x16384x1, .i1⟩
  | .hbm, ⟨27, _⟩ => ⟨S_, .i1⟩
  | .hbm, ⟨28, _⟩ => ⟨S512x16384, .i1⟩
  | .hbm, ⟨29, _⟩ => ⟨S512x16384, .f32⟩
  | .hbm, ⟨30, _⟩ => ⟨S_, .f32⟩
  | .hbm, ⟨31, _⟩ => ⟨S512x16384, .f32⟩
  | .hbm, ⟨32, _⟩ => ⟨S512x16384, .f32⟩
  | .hbm, ⟨33, _⟩ => ⟨S512x16384, .f32⟩
  | .hbm, ⟨34, _⟩ => ⟨S512, .i32⟩
  | .hbm, ⟨35, _⟩ => ⟨S512x1, .i32⟩
  | .hbm, ⟨36, _⟩ => ⟨S_, .f32⟩
  | .hbm, ⟨37, _⟩ => ⟨S512x16384, .f32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S_, .i32⟩
  | .hbm, ⟨42, _⟩ => ⟨S512x1, .i32⟩
  | .hbm, ⟨43, _⟩ => ⟨S512x1, .i32⟩
  | .hbm, ⟨44, _⟩ => ⟨S512x1, .i32⟩
  | .hbm, ⟨45, _⟩ => ⟨S_, .i32⟩
  | .hbm, ⟨46, _⟩ => ⟨S512x16384, .i32⟩
  | .hbm, ⟨47, _⟩ => ⟨S512x16384, .i1⟩
  | .hbm, ⟨48, _⟩ => ⟨S_, .i32⟩
  | .hbm, ⟨49, _⟩ => ⟨S512x16384, .i32⟩
  | .hbm, ⟨50, _⟩ => ⟨S512x16384, .i32⟩
  | .hbm, ⟨51, _⟩ => ⟨S512x16384, .i32⟩
  | .hbm, ⟨52, _⟩ => ⟨S512x16384, .i32⟩
  | .hbm, ⟨53, _⟩ => ⟨S512x16384x1, .i32⟩
  | .hbm, ⟨54, _⟩ => ⟨S512x16384x1, .i32⟩
  | .hbm, ⟨55, _⟩ => ⟨S512x16384x2, .i32⟩
  | .hbm, ⟨56, _⟩ => ⟨S512x16384, .f32⟩
  | .local _ .vmem, ⟨0, _⟩ => ⟨S2x32x16384, .f32⟩
  | .local _ .vmem, ⟨1, _⟩ => ⟨S2x32x16384, .f32⟩
  | .local _ .vmem, ⟨2, _⟩ => ⟨S2x16384, .f32⟩
  | .local _ .vmem, ⟨3, _⟩ => ⟨S16384, .f32⟩
  | .local _ .vmem, ⟨4, _⟩ => ⟨S32x16384, .i32⟩
  | .local _ .vmem, ⟨5, _⟩ => ⟨S32x16384, .i32⟩
  | .local _ .vmem, ⟨6, _⟩ => ⟨S32x16384, .i32⟩
  | .local _ .vmem, ⟨7, _⟩ => ⟨S32x16384, .i32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_c : Ref sig .tc := ⟨.hbm, 38, rfl⟩
abbrev main_v10 : Ref sig .tc := ⟨.hbm, 39, rfl⟩
abbrev main_v11 : Ref sig .tc := ⟨.hbm, 40, rfl⟩
abbrev main_c_0 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_v15 : Ref sig .tc := ⟨.hbm, 46, rfl⟩
abbrev main_v16 : Ref sig .tc := ⟨.hbm, 47, rfl⟩
abbrev main_c_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x16384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x16384x2_S2x512x16384_2_0_1 : S512x16384x2.Transposes [2, 0, 1] S2x512x16384
  transposes_S16384x2_S2x16384_1_0 : S16384x2.Transposes [1, 0] S2x16384
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  inb_S16384_S16384_0 : ∀ a, (![0] : Fin 1 → Nat) a + S16384.size a ≤ S16384.size a
  h_S16384 : 0 < S16384.numel
  inb_S2x32x16384_S1x32x16384_0_0_0 : ∀ a, (![0, 0, 0] : Fin 3 → Nat) a + S1x32x16384.size a ≤ S2x32x16384.size a
  h_S1x32x16384 : 0 < S1x32x16384.numel
  shapeCasts_S1x32x16384_S32x16384 : S1x32x16384.ShapeCasts S32x16384
  inb_S2x32x16384_S1x32x16384_1_0_0 : ∀ a, (![1, 0, 0] : Fin 3 → Nat) a + S1x32x16384.size a ≤ S2x32x16384.size a
  slices_S2x16384_o0_0_S1x16384 : S2x16384.Slices ![0, 0] S1x16384
  shapeCasts_S1x16384_S16384 : S1x16384.ShapeCasts S16384
  shapeCasts_S16384_S1x16384 : S16384.ShapeCasts S1x16384
  broadcasts_S1x16384_S32x16384 : S1x16384.Broadcasts S32x16384
  slices_S2x16384_o1_0_S1x16384 : S2x16384.Slices ![1, 0] S1x16384
  inb_S32x16384_S32x16384_0_0 : ∀ a, (![0, 0] : Fin 2 → Nat) a + S32x16384.size a ≤ S32x16384.size a
  h_S32x16384 : 0 < S32x16384.numel
  bcast_S16384_S1x16384_1 : S16384.BroadcastsInDim S1x16384 (![1] : Fin 1 → Fin S1x16384.rank)
  bcast_S1x16384_S512x16384_0_1 : S1x16384.BroadcastsInDim S512x16384 (![0, 1] : Fin 2 → Fin S512x16384.rank)
  bcast_S_S512x16384 : S_.BroadcastsInDim S512x16384 (![] : Fin 0 → Fin S512x16384.rank)
  shapeCasts_S512x16384_S512x16384x1 : S512x16384.ShapeCasts S512x16384x1
  bcast_S_S512x16384x1 : S_.BroadcastsInDim S512x16384x1 (![] : Fin 0 → Fin S512x16384x1.rank)
  bcast_S1_S1x1x1_2 : S1.BroadcastsInDim S1x1x1 (![2] : Fin 1 → Fin S1x1x1.rank)
  bcast_S1x1x1_S512x16384x1_0_1_2 : S1x1x1.BroadcastsInDim S512x16384x1 (![0, 1, 2] : Fin 3 → Fin S512x16384x1.rank)
  reducesTo_S512x16384x1_S512x16384_d2 : S512x16384x1.ReducesTo [2] S512x16384
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S512x16384_S512x16384x1_0_1 : S512x16384.BroadcastsInDim S512x16384x1 (![0, 1] : Fin 2 → Fin S512x16384x1.rank)
  concatenates_S512x16384x1_S512x16384x1_S512x16384x2_d2 : Shape.Concatenates [S512x16384x1, S512x16384x1] S512x16384x2 2
  gather_S512x16384_S512x16384x1_S512x16384_n_1_0_0_1_2_11_wf : GatherDims.WF S512x16384 S512x16384x1 S512x16384 [] [1] [0] [1] [0] 2 ![1, 1]
  scatter_S512x16384_S512x16384x2_S512x16384_n_01_01_2_wf : ScatterDims.WF S512x16384 S512x16384x2 S512x16384 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32x16384.size a ≤ S2x512x16384.size a
  hwx0_0 : ∀ i : grid0.Coords, EltTy.bits .f32 = 32 ∨ (Rect.block (s := S2x512x16384) S2x32x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x16384.size a
  hwx0_1 : ∀ i : grid0.Coords, EltTy.bits .f32 = 32 ∨ (Rect.block (s := S2x16384) S2x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384.size a ≤ S16384.size a
  hwx0_2 : ∀ i : grid0.Coords, EltTy.bits .f32 = 32 ∨ (Rect.block (s := S16384) S16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S512x16384.size a
  hwx0_3 : ∀ i : grid0.Coords, EltTy.bits .i32 = 32 ∨ (Rect.block (s := S512x16384) S32x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x16384.size a ≤ S512x16384.size a
  hwx0_4 : ∀ i : grid0.Coords, EltTy.bits .i32 = 32 ∨ (Rect.block (s := S512x16384) S32x16384.size (cc0_transform_4 i) (hinb0_4 i)).WholeWords (EltTy.packing .i32)

variable [Facts₀]

def gather_S512x16384_S512x16384x1_S512x16384_n_1_0_0_1_2_11 : GatherDims S512x16384 S512x16384x1 S512x16384 where
  offsetDims := []
  collapsedSliceDims := [1]
  operandBatchingDims := [0]
  startIndicesBatchingDims := [0]
  startIndexMap := [1]
  indexVectorDim := 2
  sliceSizes := ![1, 1]
  wf := gather_S512x16384_S512x16384x1_S512x16384_n_1_0_0_1_2_11_wf
def scatter_S512x16384_S512x16384x2_S512x16384_n_01_01_2 : ScatterDims S512x16384 S512x16384x2 S512x16384 where
  updateWindowDims := []
  insertedWindowDims := [0, 1]
  scatterDimsToOperandDims := [0, 1]
  indexVectorDim := 2
  wf := scatter_S512x16384_S512x16384x2_S512x16384_n_01_01_2_wf

abbrev win0_0 : Pipeline.Window sig grid0 :=
  Pipeline.Window.ofSpec (Memref.whole main_v0) S2x32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S32x16384.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S32x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x16384 : Shape := ⟨2, ![512, 16384]⟩
abbrev S512x16384x2 : Shape := ⟨3, ![512, 16384, 2]⟩
abbrev S16384x2 : Shape := ⟨2, ![16384, 2]⟩
abbrev S16384 : Shape := ⟨1, ![16384]⟩
abbrev S_ : Shape := ⟨0, ![]⟩
abbrev S1x16384x2 : Shape := ⟨3, ![1, 16384, 2]⟩
abbrev S1x16384x1 : Shape := ⟨3, ![1, 16384, 1]⟩
abbrev S512x16384x1 : Shape := ⟨3, ![512, 16384, 1]⟩
abbrev S1x16384 : Shape := ⟨2, ![1, 16384]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 109
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384x2, .f32⟩
  | .hbm, ⟨2, _⟩ => ⟨S16384x2, .f32⟩
  | .hbm, ⟨3, _⟩ => ⟨S16384, .f32⟩
  | .hbm, ⟨4, _⟩ => ⟨S16384, .f32⟩
  | .hbm, ⟨5, _⟩ => ⟨S16384x2, .f32⟩
  | .hbm, ⟨6, _⟩ => ⟨S16384x2, .f32⟩
  | .hbm, ⟨7, _⟩ => ⟨S_, .f32⟩
  | .hbm, ⟨8, _⟩ => ⟨S16384x2, .f32⟩
  | .hbm, ⟨9, _⟩ => ⟨S16384x2, .f32⟩
  | .hbm, ⟨10, _⟩ => ⟨S_, .f32⟩
  | .hbm, ⟨11, _⟩ => ⟨S16384x2, .f32⟩
  | .hbm, ⟨12, _⟩ => ⟨S16384x2, .f32⟩
  | .hbm, ⟨13, _⟩ => ⟨S1x16384x2, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x16384x2, .f32⟩
  | .hbm, ⟨18, _⟩ => ⟨S1x16384x2, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S16384, .f32⟩
  | .hbm, ⟨27, _⟩ => ⟨S16384, .i1⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S1x16384x1, .f32⟩
  | .hbm, ⟨40, _⟩ => ⟨S_, .f32⟩
  | .hbm, ⟨41, _⟩ => ⟨S1x16384x1, .f32⟩
  | .hbm, ⟨42, _⟩ => ⟨S1x16384x1, .f32⟩
  | .hbm, ⟨43, _⟩ => ⟨S512x16384x2, .f32⟩
  | .hbm, ⟨44, _⟩ => ⟨S512x16384x2, .f32⟩
  | .hbm, ⟨45, _⟩ => ⟨S512x16384x2, .f32⟩
  | .hbm, ⟨46, _⟩ => ⟨S512x16384x2, .f32⟩
  | .hbm, ⟨47, _⟩ => ⟨S512x16384x2, .f32⟩
  | .hbm, ⟨48, _⟩ => ⟨S512x16384x2, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S512x16384x2, .i32⟩
  | .hbm, ⟨53, _⟩ => ⟨S512x16384x2, .i32⟩
  | .hbm, ⟨54, _⟩ => ⟨S_, .i32⟩
  | .hbm, ⟨55, _⟩ => ⟨S512x16384x2, .i32⟩
  | .hbm, ⟨56, _⟩ => ⟨S512x16384x2, .i32⟩
  | .hbm, ⟨57, _⟩ => ⟨S512x16384x1, .i32⟩
  | .hbm, ⟨58, _⟩ => ⟨S512x16384, .i32⟩
  | .hbm, ⟨59, _⟩ => ⟨S512x16384x1, .i32⟩
  | .hbm, ⟨60, _⟩ => ⟨S512x16384, .i32⟩
  | .hbm, ⟨61, _⟩ => ⟨S1x16384, .f32⟩
  | .hbm, ⟨62, _⟩ => ⟨S512x16384, .f32⟩
  | .hbm, ⟨63, _⟩ => ⟨S_, .i32⟩
  | .hbm, ⟨64, _⟩ => ⟨S512x16384, .i32⟩
  | .hbm, ⟨65, _⟩ => ⟨S512x16384, .i1⟩
  | .hbm, ⟨66, _⟩ => ⟨S_, .i32⟩
  | .hbm, ⟨67, _⟩ => ⟨S512x16384, .i32⟩
  | .hbm, ⟨68, _⟩ => ⟨S512x16384, .i32⟩
  | .hbm, ⟨69, _⟩ => ⟨S512x16384, .i32⟩
  | .hbm, ⟨70, _⟩ => ⟨S512x16384x1, .i32⟩
  | .hbm, ⟨71, _⟩ => ⟨S1, .i32⟩
  | .hbm, ⟨72, _⟩ => ⟨S_, .i32⟩
  | .hbm, ⟨73, _⟩ => ⟨S512x16384x1, .i32⟩
  | .hbm, ⟨74, _⟩ => ⟨S512x16384x1, .i1⟩
  | .hbm, ⟨75, _⟩ => ⟨S1x1x1, .i32⟩
  | .hbm, ⟨76, _⟩ => ⟨S512x16384x1, .i32⟩
  | .hbm, ⟨77, _⟩ => ⟨S512x16384x1, .i1⟩
  | .hbm, ⟨78, _⟩ => ⟨S512x16384x1, .i1⟩
  | .hbm, ⟨79, _⟩ => ⟨S_, .i1⟩
  | .hbm, ⟨80, _⟩ => ⟨S512x16384, .i1⟩
  | .hbm, ⟨81, _⟩ => ⟨S512x16384, .f32⟩
  | .hbm, ⟨82, _⟩ => ⟨S_, .f32⟩
  | .hbm, ⟨83, _⟩ => ⟨S512x16384, .f32⟩
  | .hbm, ⟨84, _⟩ => ⟨S512x16384, .f32⟩
  | .hbm, ⟨85, _⟩ => ⟨S512x16384, .f32⟩
  | .hbm, ⟨86, _⟩ => ⟨S_, .f32⟩
  | .hbm, ⟨87, _⟩ => ⟨S512x16384, .f32⟩
  | .hbm, ⟨88, _⟩ => ⟨S512, .i32⟩
  | .hbm, ⟨89, _⟩ => ⟨S512x1, .i32⟩
  | .hbm, ⟨90, _⟩ => ⟨S_, .i32⟩
  | .hbm, ⟨91, _⟩ => ⟨S512x1, .i32⟩
  | .hbm, ⟨92, _⟩ => ⟨S512x1, .i1⟩
  | .hbm, ⟨93, _⟩ => ⟨S_, .i32⟩
  | .hbm, ⟨94, _⟩ => ⟨S512x1, .i32⟩
  | .hbm, ⟨95, _⟩ => ⟨S512x1, .i32⟩
  | .hbm, ⟨96, _⟩ => ⟨S512x1, .i32⟩
  | .hbm, ⟨97, _⟩ => ⟨S_, .i32⟩
  | .hbm, ⟨98, _⟩ => ⟨S512x16384, .i32⟩
  | .hbm, ⟨99, _⟩ => ⟨S512x16384, .i1⟩
  | .hbm, ⟨100, _⟩ => ⟨S_, .i32⟩
  | .hbm, ⟨101, _⟩ => ⟨S512x16384, .i32⟩
  | .hbm, ⟨102, _⟩ => ⟨S512x16384, .i32⟩
  | .hbm, ⟨103, _⟩ => ⟨S512x16384, .i32⟩
  | .hbm, ⟨104, _⟩ => ⟨S512x16384, .i32⟩
  | .hbm, ⟨105, _⟩ => ⟨S512x16384x1, .i32⟩
  | .hbm, ⟨106, _⟩ => ⟨S512x16384x1, .i32⟩
  | .hbm, ⟨107, _⟩ => ⟨S512x16384x2, .i32⟩
  | .hbm, ⟨108, _⟩ => ⟨S512x16384, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v12 : Ref sig .tc := ⟨.hbm, 35, rfl⟩
abbrev main_cst_4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_cst : Ref sig .tc := ⟨.hbm, 82, rfl⟩
abbrev main_call3_v14 : Ref sig .tc := ⟨.hbm, 83, rfl⟩
abbrev main_v31 : Ref sig .tc := ⟨.hbm, 84, rfl⟩
abbrev main_v32 : Ref sig .tc := ⟨.hbm, 85, rfl⟩
abbrev main_cst_7 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_8 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_c_10 : Ref sig .tc := ⟨.hbm, 97, rfl⟩
abbrev main_v41 : Ref sig .tc := ⟨.hbm, 98, rfl⟩
abbrev main_v42 : Ref sig .tc := ⟨.hbm, 99, rfl⟩
abbrev main_c_11 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩

abbrev nD : Nat := 1
abbrev τ : Topo := Topo.v7x

variable {F : FTy → Type} [FloatOps F]

class Facts₀ : Prop where
  bcast_S_S16384x2 : S_.BroadcastsInDim S16384x2 (![] : Fin 0 → Fin S16384x2.rank)
  bcast_S16384x2_S1x16384x2_1_2 : S16384x2.BroadcastsInDim S1x16384x2 (![1, 2] : Fin 2 → Fin S1x16384x2.rank)
  bcast_S_S1x16384x2 : S_.BroadcastsInDim S1x16384x2 (![] : Fin 0 → Fin S1x16384x2.rank)
  bcast_S_S16384 : S_.BroadcastsInDim S16384 (![] : Fin 0 → Fin S16384.rank)
  bcast_S16384_S1x16384x1_1 : S16384.BroadcastsInDim S1x16384x1 (![1] : Fin 1 → Fin S1x16384x1.rank)
  bcast_S_S1x16384x1 : S_.BroadcastsInDim S1x16384x1 (![] : Fin 0 → Fin S1x16384x1.rank)
  bcast_S1x16384x1_S512x16384x2_0_1_2 : S1x16384x1.BroadcastsInDim S512x16384x2 (![0, 1, 2] : Fin 3 → Fin S512x16384x2.rank)
  bcast_S1x16384x2_S512x16384x2_0_1_2 : S1x16384x2.BroadcastsInDim S512x16384x2 (![0, 1, 2] : Fin 3 → Fin S512x16384x2.rank)
  bcast_S_S512x16384x2 : S_.BroadcastsInDim S512x16384x2 (![] : Fin 0 → Fin S512x16384x2.rank)
  slices_S512x16384x2_S512x16384x1_0_0_0 : S512x16384x2.Slices ![0, 0, 0] S512x16384x1
  shapeCasts_S512x16384x1_S512x16384 : S512x16384x1.ShapeCasts S512x16384
  slices_S512x16384x2_S512x16384x1_0_0_1 : S512x16384x2.Slices ![0, 0, 1] S512x16384x1
  bcast_S16384_S1x16384_1 : S16384.BroadcastsInDim S1x16384 (![1] : Fin 1 → Fin S1x16384.rank)
  bcast_S1x16384_S512x16384_0_1 : S1x16384.BroadcastsInDim S512x16384 (![0, 1] : Fin 2 → Fin S512x16384.rank)
  bcast_S_S512x16384 : S_.BroadcastsInDim S512x16384 (![] : Fin 0 → Fin S512x16384.rank)
  shapeCasts_S512x16384_S512x16384x1 : S512x16384.ShapeCasts S512x16384x1
  bcast_S_S512x16384x1 : S_.BroadcastsInDim S512x16384x1 (![] : Fin 0 → Fin S512x16384x1.rank)
  bcast_S1_S1x1x1_2 : S1.BroadcastsInDim S1x1x1 (![2] : Fin 1 → Fin S1x1x1.rank)
  bcast_S1x1x1_S512x16384x1_0_1_2 : S1x1x1.BroadcastsInDim S512x16384x1 (![0, 1, 2] : Fin 3 → Fin S512x16384x1.rank)
  reducesTo_S512x16384x1_S512x16384_d2 : S512x16384x1.ReducesTo [2] S512x16384
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x16384_0_1 : S512x1.BroadcastsInDim S512x16384 (![0, 1] : Fin 2 → Fin S512x16384.rank)
  bcast_S512x16384_S512x16384x1_0_1 : S512x16384.BroadcastsInDim S512x16384x1 (![0, 1] : Fin 2 → Fin S512x16384x1.rank)
  concatenates_S512x16384x1_S512x16384x1_S512x16384x2_d2 : Shape.Concatenates [S512x16384x1, S512x16384x1] S512x16384x2 2
  gather_S512x16384_S512x16384x1_S512x16384_n_1_0_0_1_2_11_wf : GatherDims.WF S512x16384 S512x16384x1 S512x16384 [] [1] [0] [1] [0] 2 ![1, 1]
  scatter_S512x16384_S512x16384x2_S512x16384_n_01_01_2_wf : ScatterDims.WF S512x16384 S512x16384x2 S512x16384 [] [0, 1] [0, 1] 2

variable [Facts₀]

def gather_S512x16384_S512x16384x1_S512x16384_n_1_0_0_1_2_11 : GatherDims S512x16384 S512x16384x1 S512x16384 where
  offsetDims := []
  collapsedSliceDims := [1]
  operandBatchingDims := [0]
  startIndicesBatchingDims := [0]
  startIndexMap := [1]
  indexVectorDim := 2
  sliceSizes := ![1, 1]
  wf := gather_S512x16384_S512x16384x1_S512x16384_n_1_0_0_1_2_11_wf
def scatter_S512x16384_S512x16384x2_S512x16384_n_01_01_2 : ScatterDims S512x16384 S512x16384x2 S512x16384 where
  updateWindowDims := []
  insertedWindowDims := [0, 1]
  scatterDimsToOperandDims := [0, 1]
  indexVectorDim := 2
  wf := scatter_S512x16384_S512x16384x2_S512x16384_n_01_01_2_wf

class Facts : Prop extends Facts₀ where

variable [Facts]
-- ==== Proof.SampleIndex.lean ====
/-
  The index a sample lands on, as one scalar function.

  For a batch row b, a position n and a component k ∈ {0, 1} (0: the row to add into, 1: the column to read)
  both programs draw  sample = sigmoid(pmeans[n,k]) · 16383 + (softplus(psigmas[n] + 2) + ε) · 16384 · noise[b,n,k],
  round it to the nearest integer (ties to even), convert to a 32-bit integer and clamp into [0, 16383].
  Everything here is on the extended reals, every operation the exact one; float literals are kept as their words.
  `rows` and `cols` are the two [512, 16384] integer arrays of these indices.

  Two scalar laws restate the same numbers in the spelling a host program uses: the sigmoid written out as
  1 / (1 + e^(-p)) and scaled by the difference 16384 - 1, and the softplus guarded by "unordered or unequal"
  where the other spelling guards by "ordered and unequal" and negates by subtracting from zero. On the
  extended reals there is no unordered pair, 16384 - 1 is 16383, and 0 - a is -a.
-/
import Idealize.ShloMosaic.PureOps.Ideal
import Idealize.ShloMosaic.PureOps.Ideal.Laws
import Idealize.ShloMosaic.Lib.ValueIdx

noncomputable section

namespace Cert.SampleIndex

open Idealize.ShloMosaic Idealize.ShloMosaic.ValueIdx

/-- A 32-bit float literal read as the extended real it denotes. -/
abbrev lit (b : BitVec 32) : Ideal .f32 := FloatOps.ofBits (F := Ideal) .f32 b

/-- The location of the sampling distribution: sigmoid(p) · 16383. -/
def mean (p : Ideal .f32) : Ideal .f32 :=
  FloatOps.mulf (FloatOps.logistic p) (lit 0x467FFC00#32)

/-- softplus z = log(1 + e^z), computed stably as max(z, 0) + log1p(e^(-|z - 0|)); where z - 0 is not
    comparable with itself the sum z + 0 is taken instead (never, on the extended reals). -/
def softplus (z : Ideal .f32) : Ideal .f32 :=
  Scalar.select (FloatOps.cmpf .one (FloatOps.subf z (lit 0x00000000#32)) (FloatOps.subf z (lit 0x00000000#32)))
    (FloatOps.addf z (lit 0x00000000#32))
    (FloatOps.addf (FloatOps.maximumf z (lit 0x00000000#32))
      (FloatOps.log1p (FloatOps.exp (FloatOps.subf (lit 0x00000000#32) (FloatOps.absf (FloatOps.subf z (lit 0x00000000#32)))))))

/-- The scale of the sampling distribution: (softplus(s + 2) + ε) · 16384. -/
def spread (s : Ideal .f32) : Ideal .f32 :=
  FloatOps.mulf (FloatOps.addf (softplus (FloatOps.addf s (lit 0x40000000#32))) (lit 0x358637BD#32)) (lit 0x46800000#32)

/-- One sample: location + scale · noise. -/
def sample (p s z : Ideal .f32) : Ideal .f32 :=
  FloatOps.addf (mean p) (FloatOps.mulf (spread s) z)

/-- Round to nearest (ties to even), convert to a signed 32-bit integer, clamp into [0, 16383]. -/
def clamp (v : Ideal .f32) : BitVec 32 :=
  IntOp.minsi 16383#32 (IntOp.maxsi 0#32 (FloatOps.fptosi 32 (FloatOps.roundeven v)))

/-- The index component k of the sample at batch row b, position n. -/
def idx (noise : FVec Ideal ⟨3, ![512, 16384, 2]⟩ .f32) (pm : FVec Ideal ⟨2, ![16384, 2]⟩ .f32)
    (ps : FVec Ideal ⟨1, ![16384]⟩ .f32) (b : Fin 512) (n : Fin 16384) (k : Fin 2) : BitVec 32 :=
  clamp (sample (pm (ix2 n k)) (ps (ix1 n)) (noise (ix3 b n k)))

/-- Component 0 of every sample: the row each contribution is added into. -/
def rows (noise : FVec Ideal ⟨3, ![512, 16384, 2]⟩ .f32) (pm : FVec Ideal ⟨2, ![16384, 2]⟩ .f32)
    (ps : FVec Ideal ⟨1, ![16384]⟩ .f32) : IVec ⟨2, ![512, 16384]⟩ 32 :=
  fun j => idx noise pm ps (j 0) (j 1) 0

/-- Component 1 of every sample: the column each contribution is read from. -/
def cols (noise : FVec Ideal ⟨3, ![512, 16384, 2]⟩ .f32) (pm : FVec Ideal ⟨2, ![16384, 2]⟩ .f32)
    (ps : FVec Ideal ⟨1, ![16384]⟩ .f32) : IVec ⟨2, ![512, 16384]⟩ 32 :=
  fun j => idx noise pm ps (j 0) (j 1) 1

theorem rows_apply (noise : FVec Ideal ⟨3, ![512, 16384, 2]⟩ .f32) (pm : FVec Ideal ⟨2, ![16384, 2]⟩ .f32)
    (ps : FVec Ideal ⟨1, ![16384]⟩ .f32) (b : Fin 512) (n : Fin 16384) :
    rows noise pm ps (ix2 b n) = idx noise pm ps b n 0 := rfl

theorem cols_apply (noise : FVec Ideal ⟨3, ![512, 16384, 2]⟩ .f32) (pm : FVec Ideal ⟨2, ![16384, 2]⟩ .f32)
    (ps : FVec Ideal ⟨1, ![16384]⟩ .f32) (b : Fin 512) (n : Fin 16384) :
    cols noise pm ps (ix2 b n) = idx noise pm ps b n 1 := rfl

/-! ## The literals that are computed with -/

theorem lit_one : lit 0x3F800000#32 = 1 := by
  simp [lit, Ideal.ofBits, Ideal.ieee, -EReal.coe_mul]; norm_num

theorem lit_16384 : lit 0x46800000#32 = ((16384 : ℝ) : EReal) := by
  simp [lit, Ideal.ofBits, Ideal.ieee, -EReal.coe_mul]; norm_num

theorem lit_16383 : lit 0x467FFC00#32 = ((16383 : ℝ) : EReal) := by
  simp [lit, Ideal.ofBits, Ideal.ieee, -EReal.coe_mul]; norm_num

/-- 16384 - 1 = 16383, as the literals' values. -/
theorem lit_sub : FloatOps.subf (lit 0x46800000#32) (lit 0x3F800000#32) = lit 0x467FFC00#32 := by
  rw [lit_one, lit_16384, lit_16383, Ideal.subf_def, ← EReal.coe_one, ← EReal.coe_sub]; norm_num

/-! ## The same numbers in a host program's spelling -/

/-- The sigmoid written out as 1 / (1 + e^(-p)) and scaled by 16384 - 1 is the location. -/
theorem mean_host (p : Ideal .f32) :
    FloatOps.mulf (FloatOps.hostDivf (lit 0x3F800000#32)
        (FloatOps.addf (lit 0x3F800000#32) (FloatOps.hostUnary .exp (FloatOps.hostNegf p))))
      (FloatOps.subf (lit 0x46800000#32) (lit 0x3F800000#32)) = mean p := by
  rw [lit_sub, lit_one]; rfl

/-- The softplus guarded by "unordered or unequal", its exponent negated rather than subtracted from zero. -/
theorem softplus_host (z : Ideal .f32) :
    Scalar.select (FloatOps.cmpf .une (FloatOps.subf z (lit 0x00000000#32)) (FloatOps.subf z (lit 0x00000000#32)))
      (FloatOps.addf z (lit 0x00000000#32))
      (FloatOps.addf (FloatOps.maximumf z (lit 0x00000000#32))
        (FloatOps.hostUnary .log1p (FloatOps.hostUnary .exp (FloatOps.hostNegf (FloatOps.hostAbsf (FloatOps.subf z (lit 0x00000000#32)))))))
      = softplus z := by
  unfold softplus
  have hneg : ∀ a : Ideal .f32, FloatOps.hostNegf a = FloatOps.subf (lit 0x00000000#32) a := by
    intro a
    show -a = Ideal.ofBits .f32 0x00000000#32 - a
    rw [Ideal.ofBits_zero_f32, zero_sub]
  rw [hneg]; rfl

end Cert.SampleIndex

end
-- ==== Proof.IndexTail.lean ====
/-
  What both programs do with the two index arrays: the contraction  y[b, rows[b,n]] += pvalues[n] · x[b, cols[b,n]].

  `tail x pv rows cols` is that host computation as one function of the input x, the per-position values pv and
  the two [512, 16384] integer arrays: a negative index counts from the end (i < 0 ↦ i + 16384, and b < 0 ↦ b + 512
  for the batch counter); the column read is a gather along axis 1 whose result is replaced by the not-a-number
  word where the index falls outside [0, 16383]; the products are scatter-added into a zero array at (b, rows[b,n]).
  It is never opened: the two programs agree as soon as they feed it the same index arrays.
-/
import proofs.«145662_j39213051413051_2_alg».proof.KernelIdeal
import Idealize.ShloMosaic.PureOps.Ideal

noncomputable section

namespace Cert.KernelIdeal.IndexTail

open Cert.KernelIdeal Idealize.ShloMosaic

variable [Facts]
open Facts₀ Facts

/-- An index that is negative counts from the end of an axis of extent n. -/
def wrap (n : BitVec 32) (i : IVec S512x16384 32) : IVec S512x16384 32 :=
  select (cmpi .slt i (broadcastInDim S512x16384 ![] bcast_S_S512x16384 (constantI S_ 32 0#32)))
    (addi i (broadcastInDim S512x16384 ![] bcast_S_S512x16384 (constantI S_ 32 n))) i

/-- x[b, cols[b,n]]: the gather along axis 1, the not-a-number word where the index is out of range. -/
def takeAlong (x : FVec Ideal S512x16384 .f32) (cols : IVec S512x16384 32) : FVec Ideal S512x16384 .f32 :=
  select
    (Host.reduce IntOp.andi
      (andi
        (cmpi .sge (shapeCast _ (wrap 16384#32 cols) shapeCasts_S512x16384_S512x16384x1)
          (broadcastInDim S512x16384x1 ![] bcast_S_S512x16384x1 (constantI S_ 32 0#32)))
        (cmpi .sle (shapeCast _ (wrap 16384#32 cols) shapeCasts_S512x16384_S512x16384x1)
          (broadcastInDim S512x16384x1 ![0, 1, 2] bcast_S1x1x1_S512x16384x1_0_1_2
            (broadcastInDim S1x1x1 ![2] bcast_S1_S1x1x1_2 (constantI S1 32 16383#32)))))
      (constantI S_ 1 1#1) reducesTo_S512x16384x1_S512x16384_d2 h_S_)
    (Host.gather gather_S512x16384_S512x16384x1_S512x16384_n_1_0_0_1_2_11 x
      (shapeCast _ (wrap 16384#32 cols) shapeCasts_S512x16384_S512x16384x1))
    (broadcastInDim S512x16384 ![] bcast_S_S512x16384 (constant (F := Ideal) S_ .f32 0x7FC00000#32))

/-- The batch counter 0 … 511 as a column, a negative one counted from the end. -/
def batchColumn : IVec S512x1 32 :=
  select
    (cmpi .slt (broadcastInDim S512x1 ![0] bcast_S512_S512x1_0 (iotaInDim S512 32 0))
      (broadcastInDim S512x1 ![] bcast_S_S512x1 (constantI S_ 32 0#32)))
    (addi (broadcastInDim S512x1 ![0] bcast_S512_S512x1_0 (iotaInDim S512 32 0))
      (broadcastInDim S512x1 ![] bcast_S_S512x1 (constantI S_ 32 512#32)))
    (broadcastInDim S512x1 ![0] bcast_S512_S512x1_0 (iotaInDim S512 32 0))

/-- Two [512, 16384, 1] integer arrays laid side by side along the last axis: entry (b, n, 0) from the first,
    entry (b, n, 1) from the second. -/
def pair (a b : (⟨S512x16384x1, .i32⟩ : BufTy).Contents (Elt Ideal)) : (⟨S512x16384x2, .i32⟩ : BufTy).Contents (Elt Ideal) :=
  concatenate S512x16384x2 2 [⟨S512x16384x1, a⟩, ⟨S512x16384x1, b⟩] concatenates_S512x16384x1_S512x16384x1_S512x16384x2_d2

/-- The concatenation of two listed pieces is `pair` of them. -/
theorem pair_def (a b : (⟨S512x16384x1, .i32⟩ : BufTy).Contents (Elt Ideal)) :
    concatenate S512x16384x2 2 [⟨S512x16384x1, a⟩, ⟨S512x16384x1, b⟩] concatenates_S512x16384x1_S512x16384x1_S512x16384x2_d2
      = pair a b := rfl

/-- The scatter's index pairs (b, rows[b,n]). -/
def targets (rows : IVec S512x16384 32) : IVec S512x16384x2 32 :=
  pair
    (broadcastInDim S512x16384x1 ![0, 1] bcast_S512x16384_S512x16384x1_0_1
      (broadcastInDim S512x16384 ![0, 1] bcast_S512x1_S512x16384_0_1 batchColumn))
    (broadcastInDim S512x16384x1 ![0, 1] bcast_S512x16384_S512x16384x1_0_1 (wrap 16384#32 rows))

/-- y[b, rows[b,n]] += pv[n] · x[b, cols[b,n]], into a zero array. -/
def tail (x : FVec Ideal S512x16384 .f32) (pv : FVec Ideal S16384 .f32) (rows cols : IVec S512x16384 32) :
    FVec Ideal S512x16384 .f32 :=
  Host.scatterAdd scatter_S512x16384_S512x16384x2_S512x16384_n_01_01_2
    (broadcastInDim S512x16384 ![] bcast_S_S512x16384 (constant (F := Ideal) S_ .f32 0x00000000#32))
    (targets rows)
    (mulf
      (broadcastInDim S512x16384 ![0, 1] bcast_S1x16384_S512x16384_0_1
        (broadcastInDim S1x16384 ![1] bcast_S16384_S1x16384_1 pv))
      (takeAlong x cols))

end Cert.KernelIdeal.IndexTail

end
-- ==== Proof.KernelPayload.lean ====
/-
  What the kernel body stores, read at an index.

  At a grid point the body holds a [2, 32, 16384] block of the transposed noise, the whole transposed [2, 16384]
  location parameters and the [16384] scale parameters. Entry (r, n) of the block it stores into the first output
  is the clamped index of the sample drawn from component 0 — location parameter (0, n), scale parameter n,
  noise (0, r, n) —, and entry (r, n) of the second output the same from component 1.

  The body's arithmetic is pointwise: the location sigmoid(p) · 16383 on the [2, 16384] parameters, the scale
  (softplus(s + 2) + ε) · 16384 on the [16384] parameters. Between them sit only rearrangements: a row of the
  locations cut out and flattened, a vector laid as one row and copied under each of the 32 rows, a half of the
  noise block with its unit axis dropped. Each rearrangement is read at (r, n) by one lemma; the arithmetic then
  meets the specification's scalar functions term for term.
-/
import proofs.«145662_j39213051413051_2_alg».proof.Proof.Gen.KernelIdeal.Frame
import proofs.«145662_j39213051413051_2_alg».proof.Proof.SampleIndex
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-! ## The pointwise stages -/

/-- The location stage at (k, n): sigmoid of the parameter there, times 16383. -/
theorem pay3_apply (v0 : Vec Ideal S2x16384 .f32) (k : Fin 2) (n : Fin 16384) :
    k0_pay3 (F := Ideal) v0 (ix2 k n) = Cert.SampleIndex.mean (v0 (ix2 k n)) := by
  unfold k0_pay3
  rw [shapeCast_self]
  rfl

/-- The scale stage at n: (softplus(s + 2) + ε) · 16384 of the parameter there. -/
theorem pay4_apply (v5 : Vec Ideal S16384 .f32) (n : Fin 16384) :
    k0_pay4 (F := Ideal) v5 (ix1 n) = Cert.SampleIndex.spread (v5 (ix1 n)) := rfl

/-- The first output's last stage at (r, n): round, convert, clamp the sample there. -/
theorem pay1_apply (v37 : FVec Ideal S32x16384 .f32) (r : Fin 32) (n : Fin 16384) :
    k0_pay1 (F := Ideal) v37 (ix2 r n) = Cert.SampleIndex.clamp (v37 (ix2 r n)) := rfl

/-! ## The rearrangements, read at (r, n) -/

/-- A vector laid as one row and copied under every row of a [32, 16384] block reads, at (r, n), the vector at n. -/
theorem row_under_every_row {α : Type} (w : S16384.Idx → α) (r : Fin 32) (n : Fin 16384) :
    broadcastTo S32x16384 (shapeCast S1x16384 w shapeCasts_S16384_S1x16384) broadcasts_S1x16384_S32x16384 (ix2 r n)
      = w (ix1 n) :=
  (broadcastTo_1b_ab_apply _ _ r n).trans (shapeCast_a_1a_apply _ _ 0 n)

/-- Row k of a [2, 16384] array, cut out as the [1, 16384] slice at row offset o = k and flattened, reads at n the
    array at (k, n). -/
theorem row_cut_flat {α : Type} (P : S2x16384.Idx → α) (o : Nat) (h : S2x16384.Slices ![o, 0] S1x16384)
    (k : Fin 2) (hk : k.val = o + (0 : Fin 1).val) (n : Fin 16384) :
    shapeCast S16384 (extractStridedSlice S1x16384 ![o, 0] P h) shapeCasts_S1x16384_S16384 (ix1 n) = P (ix2 k n) :=
  (shapeCast_1a_a_apply _ _ n).trans (slice2_axis0_apply o P h 0 n k hk)

/-- A [1, 32, 16384] block with its unit axis dropped reads at (r, n) the block at (0, r, n). -/
theorem block_flat {α : Type} (v : S1x32x16384.Idx → α) (r : Fin 32) (n : Fin 16384) :
    shapeCast S32x16384 v shapeCasts_S1x32x16384_S32x16384 (ix2 r n) = v (ix3 (0 : Fin 1) r n) :=
  shapeCast_1ab_ab_apply v _ r n

/-! ## The composed stages -/

/-- Component 0's sample at (r, n): location (0, n) plus scale n times the noise at (0, r, n). -/
theorem pay5_apply (v0 : Vec Ideal S2x16384 .f32) (v5 : Vec Ideal S16384 .f32) (v26 : Vec Ideal S1x32x16384 .f32)
    (r : Fin 32) (n : Fin 16384) :
    k0_pay5 (F := Ideal) v0 v5 v26 (ix2 r n)
      = Cert.SampleIndex.sample (v0 (ix2 (0 : Fin 2) n)) (v5 (ix1 n)) (v26 (ix3 (0 : Fin 1) r n)) := by
  have hm : broadcastTo S32x16384 (shapeCast S1x16384 (shapeCast S16384 (extractStridedSlice S1x16384 ![0, 0]
        (k0_pay3 (F := Ideal) v0) slices_S2x16384_o0_0_S1x16384) shapeCasts_S1x16384_S16384) shapeCasts_S16384_S1x16384)
        broadcasts_S1x16384_S32x16384 (ix2 r n) = Cert.SampleIndex.mean (v0 (ix2 (0 : Fin 2) n)) :=
    (row_under_every_row _ r n).trans ((row_cut_flat _ 0 _ 0 rfl n).trans (pay3_apply v0 0 n))
  have hs : broadcastTo S32x16384 (shapeCast S1x16384 (k0_pay4 (F := Ideal) v5) shapeCasts_S16384_S1x16384)
        broadcasts_S1x16384_S32x16384 (ix2 r n) = Cert.SampleIndex.spread (v5 (ix1 n)) :=
    (row_under_every_row _ r n).trans (pay4_apply v5 n)
  have hz := block_flat v26 r n
  unfold k0_pay5 Cert.SampleIndex.sample
  exact congrArg₂ FloatOps.addf hm (congrArg₂ FloatOps.mulf hs hz)

/-- Component 1's location, kept as one row: at (0, n) the location of parameter (1, n). -/
theorem pay6_apply (v0 : Vec Ideal S2x16384 .f32) (u : Fin 1) (n : Fin 16384) :
    k0_pay6 (F := Ideal) v0 (ix2 u n) = Cert.SampleIndex.mean (v0 (ix2 (1 : Fin 2) n)) := by
  unfold k0_pay6
  exact (shapeCast_a_1a_apply _ _ u n).trans ((row_cut_flat _ 1 _ 1 rfl n).trans (pay3_apply v0 1 n))

/-- Component 1's scaled noise at (r, n): scale n times the noise at (0, r, n) of its half. -/
theorem pay7_apply (v5 : Vec Ideal S16384 .f32) (v28 : Vec Ideal S1x32x16384 .f32) (r : Fin 32) (n : Fin 16384) :
    k0_pay7 (F := Ideal) v5 v28 (ix2 r n)
      = FloatOps.mulf (Cert.SampleIndex.spread (v5 (ix1 n))) (v28 (ix3 (0 : Fin 1) r n)) := by
  have hs : broadcastTo S32x16384 (shapeCast S1x16384 (k0_pay4 (F := Ideal) v5) shapeCasts_S16384_S1x16384)
        broadcasts_S1x16384_S32x16384 (ix2 r n) = Cert.SampleIndex.spread (v5 (ix1 n)) :=
    (row_under_every_row _ r n).trans (pay4_apply v5 n)
  have hz := block_flat v28 r n
  unfold k0_pay7
  exact congrArg₂ FloatOps.mulf hs hz

/-- The second output's last stage at (r, n): the location row's entry n plus the scaled noise at (r, n), rounded,
    converted and clamped. -/
theorem pay2_apply (v40 : FVec Ideal S1x16384 .f32) (v43 : FVec Ideal S32x16384 .f32) (r : Fin 32) (n : Fin 16384) :
    k0_pay2 (F := Ideal) v40 v43 (ix2 r n)
      = Cert.SampleIndex.clamp (FloatOps.addf (v40 (ix2 (0 : Fin 1) n)) (v43 (ix2 r n))) := by
  have hb := broadcastTo_1b_ab_apply v40 broadcasts_S1x16384_S32x16384 r n
  unfold k0_pay2 Cert.SampleIndex.clamp
  exact congrArg (fun t => IntOp.minsi 16383#32 (IntOp.maxsi 0#32 (FloatOps.fptosi 32 (FloatOps.roundeven (FloatOps.addf t (v43 (ix2 r n))))))) hb

/-! ## The body's reads of its buffers -/

/-- The offsets of a whole rank-two buffer are all zero. -/
theorem zeros2 : (![0, 0] : Fin 2 → Nat) = fun _ => 0 := by
  funext a; match a with | ⟨0, _⟩ => rfl | ⟨1, _⟩ => rfl

/-- The offset of a whole rank-one buffer is zero. -/
theorem zeros1 : (![0] : Fin 1 → Nat) = fun _ => 0 := by
  funext a; match a with | ⟨0, _⟩ => rfl

/-- The first [1, 32, 16384] half of the noise block, read at (0, r, n), is the block at (0, r, n). -/
theorem ld_half0 (x0 : Vec Ideal S2x32x16384 .f32) (r : Fin 32) (n : Fin 16384) :
    View.ld x0 r0_2 (ix3 (0 : Fin 1) r n) = x0 (ix3 (0 : Fin 2) r n) :=
  congrArg x0 (funext fun a => Fin.ext (by
    match a with
    | ⟨0, _⟩ => rfl
    | ⟨1, _⟩ => show 0 + 1 * r.val = r.val; omega
    | ⟨2, _⟩ => show 0 + 1 * n.val = n.val; omega))

/-- The second half, read at (0, r, n), is the block at (1, r, n). -/
theorem ld_half1 (x0 : Vec Ideal S2x32x16384 .f32) (r : Fin 32) (n : Fin 16384) :
    View.ld x0 r0_3 (ix3 (0 : Fin 1) r n) = x0 (ix3 (1 : Fin 2) r n) :=
  congrArg x0 (funext fun a => Fin.ext (by
    match a with
    | ⟨0, _⟩ => rfl
    | ⟨1, _⟩ => show 0 + 1 * r.val = r.val; omega
    | ⟨2, _⟩ => show 0 + 1 * n.val = n.val; omega))

/-! ## The two stored blocks -/

/-- Entry (r, n) of the block stored into the first output: the clamped index of component 0's sample. -/
theorem out3_apply (x0 : Vec Ideal S2x32x16384 .f32) (x1 : Vec Ideal S2x16384 .f32) (x2 : Vec Ideal S16384 .f32)
    (r : Fin 32) (n : Fin 16384) :
    out0_3 (F := Ideal) x0 x1 x2 (ix2 r n)
      = Cert.SampleIndex.clamp (Cert.SampleIndex.sample (x1 (ix2 (0 : Fin 2) n)) (x2 (ix1 n)) (x0 (ix3 (0 : Fin 2) r n))) := by
  unfold out0_3
  rw [View.canon_unit_zero zeros2, View.ld_unit_zero (S := S2x16384) zeros2, View.ld_unit_zero (S := S16384) zeros1]
  refine (pay1_apply _ r n).trans (congrArg Cert.SampleIndex.clamp ?_)
  refine (pay5_apply x1 x2 _ r n).trans ?_
  rw [ld_half0]

/-- Entry (r, n) of the block stored into the second output: the clamped index of component 1's sample. -/
theorem out4_apply (x0 : Vec Ideal S2x32x16384 .f32) (x1 : Vec Ideal S2x16384 .f32) (x2 : Vec Ideal S16384 .f32)
    (r : Fin 32) (n : Fin 16384) :
    out0_4 (F := Ideal) x0 x1 x2 (ix2 r n)
      = Cert.SampleIndex.clamp (Cert.SampleIndex.sample (x1 (ix2 (1 : Fin 2) n)) (x2 (ix1 n)) (x0 (ix3 (1 : Fin 2) r n))) := by
  unfold out0_4
  rw [View.canon_unit_zero zeros2, View.ld_unit_zero (S := S2x16384) zeros2, View.ld_unit_zero (S := S16384) zeros1]
  refine (pay2_apply _ _ r n).trans (congrArg Cert.SampleIndex.clamp ?_)
  unfold Cert.SampleIndex.sample
  refine congrArg₂ FloatOps.addf (pay6_apply x1 0 n) ?_
  refine (pay7_apply x2 _ r n).trans ?_
  rw [ld_half1]

end Cert.KernelIdeal.Payload

end
-- ==== Proof.KernelArrays.lean ====
/-
  From the blocks each grid point writes back to the two whole index arrays.

  The region runs over 16 grid points. At point t it holds rows 32 t … 32 t + 31 of the noise, transposed beforehand
  to [2, 512, 16384] (component first), the whole transposed [2, 16384] location parameters and the [16384] scale
  parameters, and it writes back rows 32 t … 32 t + 31 of each [512, 16384] output. Entry (r, n) of what it writes
  into the first output is the clamped index of the sample drawn from component 0 of batch row 32 t + r at position n,
  and into the second output the same from component 1. So each point writes its block of ONE whole-array function of
  the three arguments — the array of row indices, the array of column indices —, the 16 blocks cover the 512 batch
  rows, and each output ends holding that array.

  The steps: the two transposes read at an index; the index maps decided over the grid; each window's block read at
  an index of an arbitrary array (a block's coordinate is the block index times the block's size plus the coordinate
  inside the block); the three input blocks as entries of the arguments; what a point writes back; the cover; the
  two final arrays.
-/
import proofs.«145662_j39213051413051_2_alg».proof.Proof.Gen.KernelIdeal.Frame
import proofs.«145662_j39213051413051_2_alg».proof.Proof.KernelPayload
import proofs.«145662_j39213051413051_2_alg».proof.Proof.SampleIndex
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-! ## The two transposed arrays the region reads -/

/-- The first window's array is the noise with its component axis moved to the front. -/
theorem noiseT_eq :
    (V m c main_v0 : Vec Ideal S2x512x16384 .f32)
      = transpose S2x512x16384 [2, 0, 1] (m ((c : Thread nD τ).loc main_arg1)) transposes_S512x16384x2_S2x512x16384_2_0_1 := by
  show StableHlo.after hostOps0 (fun b => m (c, b)) (Proc.devRef .tc main_v0) = _
  after_results

/-- The second window's array is the location parameters transposed. -/
theorem meansT_eq :
    (V m c main_v1 : Vec Ideal S2x16384 .f32)
      = transpose S2x16384 [1, 0] (m ((c : Thread nD τ).loc main_arg2)) transposes_S16384x2_S2x16384_1_0 := by
  show StableHlo.after hostOps0 (fun b => m (c, b)) (Proc.devRef .tc main_v1) = _
  after_results

/-- Entry (k, b, n) of the transposed noise is entry (b, n, k) of the noise. -/
theorem noiseT_apply (k : Fin 2) (b : Fin 512) (n : Fin 16384) :
    (V m c main_v0 : Vec Ideal S2x512x16384 .f32) (ix3 k b n)
      = (m ((c : Thread nD τ).loc main_arg1) : Vec Ideal S512x16384x2 .f32) (ix3 b n k) := by
  rw [noiseT_eq]
  exact transpose_apply _ _ _ _ _ fun a => match a with | ⟨0, _⟩ => rfl | ⟨1, _⟩ => rfl | ⟨2, _⟩ => rfl

/-- Entry (k, n) of the transposed location parameters is entry (n, k) of the parameters. -/
theorem meansT_apply (k : Fin 2) (n : Fin 16384) :
    (V m c main_v1 : Vec Ideal S2x16384 .f32) (ix2 k n)
      = (m ((c : Thread nD τ).loc main_arg2) : Vec Ideal S16384x2 .f32) (ix2 n k) := by
  rw [meansT_eq]
  exact transpose_ix2_apply _ _ k n

/-! ## The index maps over the grid -/

/-- The printed index maps, decided over the 16 grid points: the noise window moves along its batch axis with the
    point and stands still on the other two; both outputs move along their batch axis with the point; the two
    parameter windows never move. -/
theorem index_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The windows' blocks read at an index

A block's coordinate on an axis is the block index times the block's size plus the coordinate inside the block. Each
read is stated over an arbitrary array of the window's shape. -/

/-- Entry (k, r, n) of the noise window's block at point t is entry (k, 32 t + r, n) of its array. -/
theorem noise_block (A : Vec Ideal S2x512x16384 .f32) (t : Fin cfg0.N) (k : Fin 2) (r : Fin 32) (n : Fin 16384)
    (b : Fin 512) (hb : b.val = 32 * t.val + r.val) :
    ((cfg0.win 0).blk t).view.read (Elt Ideal) A (ix3 k r n) = A (ix3 k b n) := by
  obtain ⟨e0, e1, e2, -⟩ := index_facts t
  rw [View.read_apply]
  show A _ = A _
  congr 1
  funext a
  apply Fin.ext
  match a with
  | ⟨0, _⟩ => show win0_0.index t (0 : Fin 3) * 2 + 1 * k.val = k.val; omega
  | ⟨1, _⟩ => show win0_0.index t (1 : Fin 3) * 32 + 1 * r.val = b.val; omega
  | ⟨2, _⟩ => show win0_0.index t (2 : Fin 3) * 16384 + 1 * n.val = n.val; omega

/-- The location parameters' window holds its whole array at every point. -/
theorem means_block (A : Vec Ideal S2x16384 .f32) (t : Fin cfg0.N) (k : Fin 2) (n : Fin 16384) :
    ((cfg0.win 1).blk t).view.read (Elt Ideal) A (ix2 k n) = A (ix2 k n) := by
  obtain ⟨-, -, -, e3, e4, -⟩ := index_facts t
  rw [View.read_apply]
  show A _ = A _
  congr 1
  funext a
  apply Fin.ext
  match a with
  | ⟨0, _⟩ => show win0_1.index t (0 : Fin 2) * 2 + 1 * k.val = k.val; omega
  | ⟨1, _⟩ => show win0_1.index t (1 : Fin 2) * 16384 + 1 * n.val = n.val; omega

/-- The scale parameters' window holds its whole array at every point. -/
theorem scales_block (A : Vec Ideal S16384 .f32) (t : Fin cfg0.N) (n : Fin 16384) :
    ((cfg0.win 2).blk t).view.read (Elt Ideal) A (ix1 n) = A (ix1 n) := by
  obtain ⟨-, -, -, -, -, e5, -⟩ := index_facts t
  rw [View.read_apply]
  show A _ = A _
  congr 1
  funext a
  apply Fin.ext
  match a with
  | ⟨0, _⟩ => show win0_2.index t (0 : Fin 1) * 16384 + 1 * n.val = n.val; omega

/-- Entry (r, n) of the first output's block at point t is entry (32 t + r, n) of its array. -/
theorem rows_block (G : IVec S512x16384 32) (t : Fin cfg0.N) (r : Fin 32) (n : Fin 16384)
    (b : Fin 512) (hb : b.val = 32 * t.val + r.val) :
    ((cfg0.win 3).blk t).view.read (Elt Ideal) G (ix2 r n) = G (ix2 b n) := by
  obtain ⟨-, -, -, -, -, -, e6, e7, -⟩ := index_facts t
  rw [View.read_apply]
  show G _ = G _
  congr 1
  funext a
  apply Fin.ext
  match a with
  | ⟨0, _⟩ => show win0_3.index t (0 : Fin 2) * 32 + 1 * r.val = b.val; omega
  | ⟨1, _⟩ => show win0_3.index t (1 : Fin 2) * 16384 + 1 * n.val = n.val; omega

/-- Entry (r, n) of the second output's block at point t is entry (32 t + r, n) of its array. -/
theorem cols_block (G : IVec S512x16384 32) (t : Fin cfg0.N) (r : Fin 32) (n : Fin 16384)
    (b : Fin 512) (hb : b.val = 32 * t.val + r.val) :
    ((cfg0.win 4).blk t).view.read (Elt Ideal) G (ix2 r n) = G (ix2 b n) := by
  obtain ⟨-, -, -, -, -, -, -, -, e8, e9⟩ := index_facts t
  rw [View.read_apply]
  show G _ = G _
  congr 1
  funext a
  apply Fin.ext
  match a with
  | ⟨0, _⟩ => show win0_4.index t (0 : Fin 2) * 32 + 1 * r.val = b.val; omega
  | ⟨1, _⟩ => show win0_4.index t (1 : Fin 2) * 16384 + 1 * n.val = n.val; omega

/-! ## The input blocks as entries of the three arguments -/

/-- Entry (k, r, n) of the noise block at point t is the noise at batch row 32 t + r, position n, component k. -/
theorem noise_at (t : Fin cfg0.N) (k : Fin 2) (r : Fin 32) (n : Fin 16384) (b : Fin 512) (hb : b.val = 32 * t.val + r.val) :
    (iblk m c 0 t : Vec Ideal S2x32x16384 .f32) (ix3 k r n)
      = (m ((c : Thread nD τ).loc main_arg1) : Vec Ideal S512x16384x2 .f32) (ix3 b n k) := by
  unfold iblk
  exact (noise_block (V m c main_v0) t k r n b hb).trans (noiseT_apply m c k b n)

/-- Entry (k, n) of the location parameters' block is the parameter of position n, component k. -/
theorem means_at (t : Fin cfg0.N) (k : Fin 2) (n : Fin 16384) :
    (iblk m c 1 t : Vec Ideal S2x16384 .f32) (ix2 k n)
      = (m ((c : Thread nD τ).loc main_arg2) : Vec Ideal S16384x2 .f32) (ix2 n k) := by
  unfold iblk
  exact (means_block (V m c main_v1) t k n).trans (meansT_apply m c k n)

/-- Entry n of the scale parameters' block is the parameter of position n. -/
theorem scales_at (t : Fin cfg0.N) (n : Fin 16384) :
    (iblk m c 2 t : Vec Ideal S16384 .f32) (ix1 n)
      = (m ((c : Thread nD τ).loc main_arg3) : Vec Ideal S16384 .f32) (ix1 n) := by
  unfold iblk
  exact (scales_block (V m c main_arg3) t n).trans (congrFun (V_main_arg3 m c) (ix1 n))

/-! ## What each point writes back -/

/-- Point t writes back, into the first output, block t of the array of row indices. -/
theorem rows_flushed (t : Fin cfg0.N) :
    (dats m 0 c).flushed 3 t = ((cfg0.win 3).blk t).view.read (Elt Ideal)
      (Cert.SampleIndex.rows (m ((c : Thread nD τ).loc main_arg1)) (m ((c : Thread nD τ).loc main_arg2)) (m ((c : Thread nD τ).loc main_arg3))) := by
  have hN : grid0.N = 16 := N_0
  show (cfg0.win 3).cut (grid0.coords t) ((dats m 0 c).after 3 t) = _
  rw [after0_3]
  funext j
  obtain ⟨r, n, rfl⟩ : ∃ (r : Fin 32) (n : Fin 16384), j = ix2 r n := ⟨j 0, j 1, eq_ix2 j⟩
  have ht : t.val < 16 := hN ▸ t.isLt
  obtain ⟨b, hb⟩ : ∃ b : Fin 512, b.val = 32 * t.val + r.val := ⟨⟨32 * t.val + r.val, by have := r.isLt; omega⟩, rfl⟩
  refine (Cert.KernelIdeal.Payload.out3_apply _ _ _ r n).trans ?_
  refine Eq.trans ?_ (rows_block _ t r n b hb).symm
  rw [Cert.SampleIndex.rows_apply, noise_at m c t 0 r n b hb, means_at m c t 0 n, scales_at m c t n]
  rfl

/-- Point t writes back, into the second output, block t of the array of column indices. -/
theorem cols_flushed (t : Fin cfg0.N) :
    (dats m 0 c).flushed 4 t = ((cfg0.win 4).blk t).view.read (Elt Ideal)
      (Cert.SampleIndex.cols (m ((c : Thread nD τ).loc main_arg1)) (m ((c : Thread nD τ).loc main_arg2)) (m ((c : Thread nD τ).loc main_arg3))) := by
  have hN : grid0.N = 16 := N_0
  show (cfg0.win 4).cut (grid0.coords t) ((dats m 0 c).after 4 t) = _
  rw [after0_4]
  funext j
  obtain ⟨r, n, rfl⟩ : ∃ (r : Fin 32) (n : Fin 16384), j = ix2 r n := ⟨j 0, j 1, eq_ix2 j⟩
  have ht : t.val < 16 := hN ▸ t.isLt
  obtain ⟨b, hb⟩ : ∃ b : Fin 512, b.val = 32 * t.val + r.val := ⟨⟨32 * t.val + r.val, by have := r.isLt; omega⟩, rfl⟩
  refine (Cert.KernelIdeal.Payload.out4_apply _ _ _ r n).trans ?_
  refine Eq.trans ?_ (cols_block _ t r n b hb).symm
  rw [Cert.SampleIndex.cols_apply, noise_at m c t 1 r n b hb, means_at m c t 1 n, scales_at m c t n]
  rfl

/-! ## The blocks cover the arrays -/

/-- An index of the first output is in point t's block iff each coordinate is in the block's range on its axis. -/
theorem mem_rows_block (t : Fin cfg0.N) (i : S512x16384.Idx) :
    i ∈ ((cfg0.win 3).blk t).view.set ↔ ∀ a : Fin 2, win0_3.index t a * S32x16384.size a ≤ (i a).val
      ∧ (i a).val < win0_3.index t a * S32x16384.size a + S32x16384.size a := by
  show i ∈ ((View.whole main_v2_0).slice (win0_3.rect t)).set ↔ _
  rw [View.set_slice_whole, Rect.mem_set_unit]
  exact Iff.rfl

/-- The same for the second output. -/
theorem mem_cols_block (t : Fin cfg0.N) (i : S512x16384.Idx) :
    i ∈ ((cfg0.win 4).blk t).view.set ↔ ∀ a : Fin 2, win0_4.index t a * S32x16384.size a ≤ (i a).val
      ∧ (i a).val < win0_4.index t a * S32x16384.size a + S32x16384.size a := by
  show i ∈ ((View.whole main_v2_1).slice (win0_4.rect t)).set ↔ _
  rw [View.set_slice_whole, Rect.mem_set_unit]
  exact Iff.rfl

/-- Batch row b lies in the block of point b / 32: every index of the first output is written back by some point. -/
theorem rows_cover (i : S512x16384.Idx) :
    ∃ t : Fin cfg0.N, (cfg0.win 3).flush t = true ∧ i ∈ ((cfg0.win 3).blk t).view.set := by
  have hN : grid0.N = 16 := N_0
  have hi0 : (i 0).val < 512 := (i 0).isLt
  have hi1 : (i 1).val < 16384 := (i 1).isLt
  obtain ⟨t, ht⟩ : ∃ t : Fin cfg0.N, t.val = (i 0).val / 32 :=
    ⟨⟨(i 0).val / 32, by show (i 0).val / 32 < grid0.N; omega⟩, rfl⟩
  obtain ⟨-, -, -, -, -, -, e6, e7, -⟩ := index_facts t
  refine ⟨t, flush0_3 t, ?_⟩
  rw [mem_rows_block]
  intro a
  match a with
  | ⟨0, _⟩ =>
    show win0_3.index t (0 : Fin 2) * 32 ≤ (i 0).val ∧ (i 0).val < win0_3.index t (0 : Fin 2) * 32 + 32
    omega
  | ⟨1, _⟩ =>
    show win0_3.index t (1 : Fin 2) * 16384 ≤ (i 1).val ∧ (i 1).val < win0_3.index t (1 : Fin 2) * 16384 + 16384
    omega

/-- And every index of the second output. -/
theorem cols_cover (i : S512x16384.Idx) :
    ∃ t : Fin cfg0.N, (cfg0.win 4).flush t = true ∧ i ∈ ((cfg0.win 4).blk t).view.set := by
  have hN : grid0.N = 16 := N_0
  have hi0 : (i 0).val < 512 := (i 0).isLt
  have hi1 : (i 1).val < 16384 := (i 1).isLt
  obtain ⟨t, ht⟩ : ∃ t : Fin cfg0.N, t.val = (i 0).val / 32 :=
    ⟨⟨(i 0).val / 32, by show (i 0).val / 32 < grid0.N; omega⟩, rfl⟩
  obtain ⟨-, -, -, -, -, -, -, -, e8, e9⟩ := index_facts t
  refine ⟨t, flush0_4 t, ?_⟩
  rw [mem_cols_block]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 16384 ≤ (i 1).val ∧ (i 1).val < win0_4.index t (1 : Fin 2) * 16384 + 16384
    omega

/-! ## The two arrays after the region -/

/-- The first output ends holding the row index of every sample. -/
theorem rows_final :
    (dats m 0 c).arrAt 3 cfg0.N
      = Cert.SampleIndex.rows (m ((c : Thread nD τ).loc main_arg1)) (m ((c : Thread nD τ).loc main_arg2)) (m ((c : Thread nD τ).loc main_arg3)) :=
  (dats m 0 c).arrAt_eq_of_cover 3 _ (fun t _ => rows_flushed m c t) rows_cover

/-- The second output ends holding the column index of every sample. -/
theorem cols_final :
    (dats m 0 c).arrAt 4 cfg0.N
      = Cert.SampleIndex.cols (m ((c : Thread nD τ).loc main_arg1)) (m ((c : Thread nD τ).loc main_arg2)) (m ((c : Thread nD τ).loc main_arg3)) :=
  (dats m 0 c).arrAt_eq_of_cover 4 _ (fun t _ => cols_flushed m c t) cols_cover

end Cert.KernelIdeal.Arrays

end
-- ==== Proof.KernelTail.lean ====
/-
  The kernel program ends with the shared contraction applied to the two arrays its region wrote.

  After the region the program runs 48 host operations. From ANY buffer contents whose input x, per-position values,
  and two integer index arrays are given, the last of them leaves  y[b, rows[b,n]] += pvalues[n] · x[b, cols[b,n]]:
  the operations are read back one by one and what is left is the contraction's own definition. At the region's exit
  the two index arrays are what the grid's write-backs left and every other buffer is as the region found it, and
  no operation before the region touched x or the values.
-/
import proofs.«145662_j39213051413051_2_alg».proof.Proof.Gen.KernelIdeal.Frame
import proofs.«145662_j39213051413051_2_alg».proof.Proof.IndexTail
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo

/-- Reading back, at a value's type, what was written through the same typed reference gives the value. -/
theorem ofBuf_toBuf {T : BufTy} (x : TRef sig T) (v : T.Contents (Elt Ideal)) : x.ofBuf (x.toBuf v) = v := by
  unfold TRef.ofBuf TRef.toBuf
  rw [cast_cast]
  exact cast_eq _ _

/-- At a literal buffer the typed reference's type IS the buffer's: reading or writing through it changes nothing. -/
theorem ofBuf_v2_1 (v : (Proc.devRef (τ := τ) .tc main_v2_1).ty.Contents (Elt Ideal)) :
    (TRef.of (sig := sig) (T := ⟨S512x16384, .i32⟩) main_v2_1).ofBuf v = v := rfl
theorem ofBuf_arg0 (v : (Proc.devRef (τ := τ) .tc main_arg0).ty.Contents (Elt Ideal)) :
    (TRef.of (sig := sig) (T := ⟨S512x16384, .f32⟩) main_arg0).ofBuf v = v := rfl
theorem ofBuf_call0_v5 (v : (Proc.devRef (τ := τ) .tc main_call0_v5).ty.Contents (Elt Ideal)) :
    (TRef.of (sig := sig) (T := ⟨S512x16384x1, .i32⟩) main_call0_v5).ofBuf v = v := rfl
theorem toBuf_call0_v4 (v : (⟨S512x16384, .i32⟩ : BufTy).Contents (Elt Ideal)) :
    (TRef.of (sig := sig) (T := ⟨S512x16384, .i32⟩) main_call0_v4).toBuf v = v := rfl
theorem toBuf_v5 (v : (⟨S512x16384, .f32⟩ : BufTy).Contents (Elt Ideal)) :
    (TRef.of (sig := sig) (T := ⟨S512x16384, .f32⟩) main_v5).toBuf v = v := rfl

/-- The operation that lays the two [512, 16384, 1] index columns side by side leaves `pair` of what its operands hold. -/
theorem concat_result (G : Valuation τ sig (Elt Ideal)) :
    (binary main_v21 main_v22 main_v23
        ((fun a b => concatenate S512x16384x2 2 [⟨S512x16384x1, a⟩, ⟨S512x16384x1, b⟩]
            concatenates_S512x16384x1_S512x16384x1_S512x16384x2_d2) :
          (⟨S512x16384x1, .i32⟩ : BufTy).Contents (Elt Ideal) → (⟨S512x16384x1, .i32⟩ : BufTy).Contents (Elt Ideal) →
            (⟨S512x16384x2, .i32⟩ : BufTy).Contents (Elt Ideal))).result G (no_index (Proc.devRef .tc main_v23))
      = Cert.KernelIdeal.IndexTail.pair (G (Proc.devRef .tc main_v21)) (G (Proc.devRef .tc main_v22)) :=
  binary_result _ _ _ _ _ _ _ G

set_option maxRecDepth 32768 in
set_option maxHeartbeats 8000000 in
/-- The 48 host operations after the region, from any contents, leave the contraction of what the contents hold
    at the input, the values and the two index arrays. -/
theorem after_tail (W : Valuation τ sig (Elt Ideal)) (x : FVec Ideal S512x16384 .f32) (pv : FVec Ideal S16384 .f32)
    (R C : IVec S512x16384 32)
    (hx : W (Proc.devRef .tc main_arg0) = x) (hp : W (Proc.devRef .tc main_arg4) = pv)
    (hR : W (Proc.devRef .tc main_v2_0) = R) (hC : W (Proc.devRef .tc main_v2_1) = C) :
    StableHlo.after (List.flatten [hostOps1, hostOps1_1, hostOps1_2]) W (Proc.devRef .tc main_v24)
      = Cert.KernelIdeal.IndexTail.tail x pv R C := by
  subst hx hp hR hC
  simp only [hostOps1, hostOps1_1, hostOps1_2, List.flatten_cons, List.flatten_nil, List.append_nil, List.cons_append,
    List.nil_append]
  simp (disch := decide) only [after_cons, after_nil,
    nullary_result', unary_result', binary_result', ternary_result', quaternary_result', reshape_result', nary4_result',
    nary_result', unaryIndexed_result', binaryIndexed_result',
    nullary_result_ne', unary_result_ne', binary_result_ne', ternary_result_ne', quaternary_result_ne', reshape_result_ne',
    nary_result_ne', unaryIndexed_result_ne', binaryIndexed_result_ne', ↓ concat_result,
    ofBuf_toBuf, ofBuf_v2_1, ofBuf_arg0, ofBuf_call0_v5, toBuf_call0_v4, toBuf_v5]
  rfl

/-- The program's result buffer after the run's tail: the contraction along the arrays the region wrote. -/
theorem kernel_tail (m : (ℓ : Loc nD τ sig) → Buf (Elt Ideal) ℓ) (c : Dev nD) :
    Pipeline.afterTail₀ cfgs (dats m) 0 (V0 m) [hostOps1, hostOps1_1, hostOps1_2] c main_v24
      = Cert.KernelIdeal.IndexTail.tail (m ((c : Thread nD τ).loc main_arg0)) (m ((c : Thread nD τ).loc main_arg4))
          ((dats m 0 c).arrAt 3 cfg0.N) ((dats m 0 c).arrAt 4 cfg0.N) := by
  unfold Pipeline.afterTail₀
  refine after_tail _ _ _ _ _ ?_ ?_ ?_ ?_
  · exact (Pipeline.withArrays_of_ne _ c (V0 m c) _ main_arg0 (by exact (by decide : ∀ w, Pipeline.arrRef spec0 w ≠ main_arg0))).trans
      (V_main_arg0 m c)
  · exact (Pipeline.withArrays_of_ne _ c (V0 m c) _ main_arg4 (by exact (by decide : ∀ w, Pipeline.arrRef spec0 w ≠ main_arg4))).trans
      (V_main_arg4 m c)
  · exact Pipeline.withArrays_arr spec0 launch0.win.arr_inj c _ _ 3
  · exact Pipeline.withArrays_arr spec0 launch0.win.arr_inj c _ _ 4

end Cert.KernelIdeal.Tail

end
-- ==== Proof.RefIndices.lean ====
/-
  The reference program's two index arrays are the specification's.

  The reference computes, on the whole [512, 16384, 2] array at once,
    indices = clamp(convert(round(sigmoid(pmeans) · (16384 − 1) + (softplus(psigmas + 2) + ε) · 16384 · noise)))
  with the location broadcast along the batch axis and the scale along the batch and component axes, and then
  slices component 0 into the rows and component 1 into the columns. Read at one index (b, n) every broadcast,
  slice and reshape is a re-indexing, so each array element is the scalar function of
  pmeans[n, k], psigmas[n] and noise[b, n, k] that the specification names; the sigmoid and the softplus are
  in the host's spelling, which the specification's two scalar laws restate.
-/
import proofs.«145662_j39213051413051_2_alg».proof.Proof.RefReadP
import proofs.«145662_j39213051413051_2_alg».proof.Proof.SampleIndex
import Idealize.ShloMosaic.Lib.ValueIdx

noncomputable section

namespace Cert.ReferenceIdeal.Indices

open Cert.ReferenceIdeal Cert.ReferenceIdeal.ReadP Idealize.ShloMosaic Idealize.ShloMosaic.ValueIdx
open Cert.SampleIndex (lit mean softplus spread sample clamp idx)

/-! ## The location: sigmoid(pmeans[n, k]) · 16383 -/

/-- The sigmoid at an index of pmeans, in the host's spelling 1 / (1 + e^(-p)). -/
theorem sigmoid_at (x2 : (⟨S16384x2, .f32⟩ : BufTy).Contents (Elt Ideal)) (i : S16384x2.Idx) :
    val_main_v5 (F := Ideal) x2 i
      = FloatOps.hostDivf (lit 0x3F800000#32)
          (FloatOps.addf (lit 0x3F800000#32) (FloatOps.hostUnary .exp (FloatOps.hostNegf (x2 i)))) := by
  rw [val_main_v5_apply, val_main_v4_apply, val_main_cst_0_apply, val_main_v3_apply, val_main_v2_apply,
    val_main_cst_apply, val_main_v1_apply, val_main_v0_apply]

/-- The location broadcast to [1, 16384, 2], at (0, n, k), is the specification's location of pmeans[n, k]. -/
theorem mean_at (x2 : (⟨S16384x2, .f32⟩ : BufTy).Contents (Elt Ideal)) (n : Fin 16384) (k : Fin 2) :
    val_main_v9 (F := Ideal) x2 (ix3 (0 : Fin 1) n k) = mean (x2 (ix2 n k)) := by
  have hidx : idx_main_v6 (ix3 (0 : Fin 1) n k) = ix2 n k := by
    funext a; match a with | ⟨0, _⟩ => rfl | ⟨1, _⟩ => rfl
  rw [val_main_v9_apply, val_main_v6_apply, val_main_v8_apply, val_main_v7_apply, val_main_cst_1_apply,
    val_main_cst_2_apply, sigmoid_at, hidx]
  exact Cert.SampleIndex.mean_host _

/-! ## The scale: (softplus(psigmas[n] + 2) + ε) · 16384 -/

/-- The softplus of psigmas + 2 at an index, in the host's spelling, is the specification's softplus. -/
theorem softplus_at (x3 : (⟨S16384, .f32⟩ : BufTy).Contents (Elt Ideal)) (i : S16384.Idx) :
    val_main_v12 (F := Ideal) x3 i = softplus (FloatOps.addf (x3 i) (lit 0x40000000#32)) := by
  have hz : val_main_v11 (F := Ideal) x3 i = FloatOps.addf (x3 i) (lit 0x40000000#32) := by
    rw [val_main_v11_apply, val_main_v10_apply, val_main_cst_3_apply]
  rw [val_main_v12_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v5_apply, val_main_call0_v2_apply,
    val_main_call0_v0_apply, val_main_call0_cst_apply, hz]
  exact Cert.SampleIndex.softplus_host _

/-- The scale broadcast to [1, 16384, 1], at (0, n, 0), is the specification's scale of psigmas[n]. -/
theorem spread_at (x3 : (⟨S16384, .f32⟩ : BufTy).Contents (Elt Ideal)) (n : Fin 16384) :
    val_main_v17 (F := Ideal) x3 (ix3 (0 : Fin 1) n (0 : Fin 1)) = spread (x3 (ix1 n)) := by
  have hidx : idx_main_v15 (ix3 (0 : Fin 1) n (0 : Fin 1)) = ix1 n := by
    funext a; match a with | ⟨0, _⟩ => rfl
  rw [val_main_v17_apply, val_main_v15_apply, val_main_v16_apply, val_main_cst_5_apply, val_main_v14_apply,
    val_main_v13_apply, val_main_cst_4_apply, softplus_at, hidx]
  rfl

/-! ## The sample and its index -/

/-- The float sample at (b, n, k): location + scale · noise. -/
theorem sample_at (x1 : (⟨S512x16384x2, .f32⟩ : BufTy).Contents (Elt Ideal))
    (x2 : (⟨S16384x2, .f32⟩ : BufTy).Contents (Elt Ideal)) (x3 : (⟨S16384, .f32⟩ : BufTy).Contents (Elt Ideal))
    (b : Fin 512) (n : Fin 16384) (k : Fin 2) :
    val_main_v21 (F := Ideal) x1 x2 x3 (ix3 b n k)
      = sample (x2 (ix2 n k)) (x3 (ix1 n)) (x1 (ix3 b n k)) := by
  have h20 : idx_main_v20 (ix3 b n k) = ix3 (0 : Fin 1) n k := by
    funext a; match a with | ⟨0, _⟩ => rfl | ⟨1, _⟩ => rfl | ⟨2, _⟩ => rfl
  have h18 : idx_main_v18 (ix3 b n k) = ix3 (0 : Fin 1) n (0 : Fin 1) := by
    funext a; match a with | ⟨0, _⟩ => rfl | ⟨1, _⟩ => rfl | ⟨2, _⟩ => rfl
  rw [val_main_v21_apply, val_main_v20_apply, val_main_v19_apply, val_main_v18_apply, h20, h18, mean_at, spread_at]
  rfl

/-- The clamped integer index at (b, n, k). -/
theorem index_at (x1 : (⟨S512x16384x2, .f32⟩ : BufTy).Contents (Elt Ideal))
    (x2 : (⟨S16384x2, .f32⟩ : BufTy).Contents (Elt Ideal)) (x3 : (⟨S16384, .f32⟩ : BufTy).Contents (Elt Ideal))
    (b : Fin 512) (n : Fin 16384) (k : Fin 2) :
    val_main_v24 (F := Ideal) x1 x2 x3 (ix3 b n k) = idx x1 x2 x3 b n k := by
  rw [val_main_v24_apply, val_main_call2_v4_apply, val_main_call2_v3_apply, val_main_c_6_apply,
    val_main_call2_v2_apply, val_main_call2_v1_apply, val_main_call2_v0_apply, val_main_c_apply,
    val_main_v23_apply, val_main_v22_apply, sample_at]
  rfl

/-! ## The two slices -/

/-- The reshape [512, 16384, 1] → [512, 16384] reads (b, n) at (b, n, 0). -/
theorem reshape_idx (b : Fin 512) (n : Fin 16384) :
    idx_main_v26 (ix2 b n) = ix3 b n (0 : Fin 1) := by
  funext a
  match a with
  | ⟨0, _⟩ => exact Fin.ext (by show (b.val * 16384 + n.val) / 16384 = b.val; have := n.isLt; omega)
  | ⟨1, _⟩ => exact Fin.ext (by show (b.val * 16384 + n.val) / 1 % 16384 = n.val; have := n.isLt; omega)
  | ⟨2, _⟩ => rfl

theorem ref_rows (x1 : (⟨Cert.ReferenceIdeal.S512x16384x2, .f32⟩ : BufTy).Contents (Elt Ideal))
    (x2 : (⟨Cert.ReferenceIdeal.S16384x2, .f32⟩ : BufTy).Contents (Elt Ideal))
    (x3 : (⟨Cert.ReferenceIdeal.S16384, .f32⟩ : BufTy).Contents (Elt Ideal)) :
    Cert.ReferenceIdeal.ReadP.val_main_v26 (F := Ideal) x1 x2 x3 = Cert.SampleIndex.rows x1 x2 x3 := by
  funext j
  obtain ⟨b, n, rfl⟩ : ∃ (b : Fin 512) (n : Fin 16384), j = ix2 b n := ⟨j 0, j 1, eq_ix2 j⟩
  have h25 : idx_main_v25 (ix3 b n (0 : Fin 1)) = ix3 b n (0 : Fin 2) := by
    funext a; match a with | ⟨0, _⟩ => rfl | ⟨1, _⟩ => rfl | ⟨2, _⟩ => rfl
  rw [val_main_v26_apply, reshape_idx, val_main_v25_apply, h25, index_at]
  rfl

theorem ref_cols (x1 : (⟨Cert.ReferenceIdeal.S512x16384x2, .f32⟩ : BufTy).Contents (Elt Ideal))
    (x2 : (⟨Cert.ReferenceIdeal.S16384x2, .f32⟩ : BufTy).Contents (Elt Ideal))
    (x3 : (⟨Cert.ReferenceIdeal.S16384, .f32⟩ : BufTy).Contents (Elt Ideal)) :
    Cert.ReferenceIdeal.ReadP.val_main_v28 (F := Ideal) x1 x2 x3 = Cert.SampleIndex.cols x1 x2 x3 := by
  funext j
  obtain ⟨b, n, rfl⟩ : ∃ (b : Fin 512) (n : Fin 16384), j = ix2 b n := ⟨j 0, j 1, eq_ix2 j⟩
  have h27 : idx_main_v27 (ix3 b n (0 : Fin 1)) = ix3 b n (1 : Fin 2) := by
    funext a; match a with | ⟨0, _⟩ => rfl | ⟨1, _⟩ => rfl | ⟨2, _⟩ => rfl
  rw [val_main_v28_apply, show idx_main_v28 (ix2 b n) = ix3 b n (0 : Fin 1) from reshape_idx b n,
    val_main_v27_apply, h27, index_at]
  rfl

end Cert.ReferenceIdeal.Indices

end
-- ==== Proof.RefStages.lean ====
/-
  The reference program's run, read in two stages.

  The reference is a straight line of 104 host operations. Its first 56 compute the [512, 16384, 2] array of clamped
  sample indices and slice it into the rows (component 0) and the columns (component 1); its last 48 are the contraction
  y[b, rows[b,n]] += pvalues[n] · x[b, cols[b,n]]. Reading the line in these two stages keeps every term small: the
  first stage is read once per index array, and the second from ANY buffer contents, with the two index arrays as
  unknowns — the contraction's own definition is what is left, so the result is that contraction of the two slices.
  The operations' text is the program's own list, cut after the operation that writes the columns.
-/
import proofs.«145662_j39213051413051_2_alg».proof.Proof.RefRunP
import proofs.«145662_j39213051413051_2_alg».proof.Proof.RefReadP
import proofs.«145662_j39213051413051_2_alg».proof.Proof.Gen.KernelIdeal
import proofs.«145662_j39213051413051_2_alg».proof.Proof.IndexTail
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The first 56 operations: the samples, their clamped indices, the two slices. -/
abbrev opsA : List (HloOp τ sig (Elt F)) :=
  [ unary main_arg2 main_v0 (Host.negf : (⟨S16384x2, .f32⟩ : BufTy).Contents (Elt F) → (⟨S16384x2, .f32⟩ : BufTy).Contents (Elt F)),
    unary main_v0 main_v1 (Host.exp : (⟨S16384x2, .f32⟩ : BufTy).Contents (Elt F) → (⟨S16384x2, .f32⟩ : BufTy).Contents (Elt F)),
    nullary main_cst (constant S_ .f32 0x3F800000#32),
    unary main_cst main_v2 (broadcastInDim S16384x2 ![] bcast_S_S16384x2 : (⟨S_, .f32⟩ : BufTy).Contents (Elt F) → (⟨S16384x2, .f32⟩ : BufTy).Contents (Elt F)),
    binary main_v2 main_v1 main_v3 (addf : (⟨S16384x2, .f32⟩ : BufTy).Contents (Elt F) → (⟨S16384x2, .f32⟩ : BufTy).Contents (Elt F) → (⟨S16384x2, .f32⟩ : BufTy).Contents (Elt F)),
    nullary main_cst_0 (constant S_ .f32 0x3F800000#32),
    unary main_cst_0 main_v4 (broadcastInDim S16384x2 ![] bcast_S_S16384x2 : (⟨S_, .f32⟩ : BufTy).Contents (Elt F) → (⟨S16384x2, .f32⟩ : BufTy).Contents (Elt F)),
    binary main_v4 main_v3 main_v5 (Host.divf : (⟨S16384x2, .f32⟩ : BufTy).Contents (Elt F) → (⟨S16384x2, .f32⟩ : BufTy).Contents (Elt F) → (⟨S16384x2, .f32⟩ : BufTy).Contents (Elt F)),
    unary main_v5 main_v6 (broadcastInDim S1x16384x2 ![1, 2] bcast_S16384x2_S1x16384x2_1_2 : (⟨S16384x2, .f32⟩ : BufTy).Contents (Elt F) → (⟨S1x16384x2, .f32⟩ : BufTy).Contents (Elt F)),
    nullary main_cst_1 (constant S_ .f32 0x46800000#32),
    nullary main_cst_2 (constant S_ .f32 0x3F800000#32),
    binary main_cst_1 main_cst_2 main_v7 (subf : (⟨S_, .f32⟩ : BufTy).Contents (Elt F) → (⟨S_, .f32⟩ : BufTy).Contents (Elt F) → (⟨S_, .f32⟩ : BufTy).Contents (Elt F)),
    unary main_v7 main_v8 (broadcastInDim S1x16384x2 ![] bcast_S_S1x16384x2 : (⟨S_, .f32⟩ : BufTy).Contents (Elt F) → (⟨S1x16384x2, .f32⟩ : BufTy).Contents (Elt F)),
    binary main_v6 main_v8 main_v9 (mulf : (⟨S1x16384x2, .f32⟩ : BufTy).Contents (Elt F) → (⟨S1x16384x2, .f32⟩ : BufTy).Contents (Elt F) → (⟨S1x16384x2, .f32⟩ : BufTy).Contents (Elt F)),
    nullary main_cst_3 (constant S_ .f32 0x40000000#32),
    unary main_cst_3 main_v10 (broadcastInDim S16384 ![] bcast_S_S16384 : (⟨S_, .f32⟩ : BufTy).Contents (Elt F) → (⟨S16384, .f32⟩ : BufTy).Contents (Elt F)),
    binary main_arg3 main_v10 main_v11 (addf : (⟨S16384, .f32⟩ : BufTy).Contents (Elt F) → (⟨S16384, .f32⟩ : BufTy).Contents (Elt F) → (⟨S16384, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16384, .f32⟩) main_call0_v0) (broadcastInDim S16384 ![] bcast_S_S16384),
    TRef.binary (TRef.of (T := ⟨S16384, .f32⟩) main_v11) (TRef.of (T := ⟨S16384, .f32⟩) main_call0_v0) (TRef.of (T := ⟨S16384, .f32⟩) main_call0_v1) maximumf,
    TRef.unary (TRef.of (T := ⟨S_, .f32⟩) main_call0_cst) (TRef.of (T := ⟨S16384, .f32⟩) main_call0_v2) (broadcastInDim S16384 ![] bcast_S_S16384),
    TRef.binary (TRef.of (T := ⟨S16384, .f32⟩) main_v11) (TRef.of (T := ⟨S16384, .f32⟩) main_call0_v2) (TRef.of (T := ⟨S16384, .f32⟩) main_call0_v3) subf,
    TRef.binary (TRef.of (T := ⟨S16384, .f32⟩) main_call0_v3) (TRef.of (T := ⟨S16384, .f32⟩) main_call0_v3) (TRef.of (T := ⟨S16384, .i1⟩) main_call0_v4) (cmpf .une),
    TRef.unary (TRef.of (T := ⟨S_, .f32⟩) main_call0_cst) (TRef.of (T := ⟨S16384, .f32⟩) main_call0_v5) (broadcastInDim S16384 ![] bcast_S_S16384),
    TRef.binary (TRef.of (T := ⟨S16384, .f32⟩) main_v11) (TRef.of (T := ⟨S16384, .f32⟩) main_call0_v5) (TRef.of (T := ⟨S16384, .f32⟩) main_call0_v6) addf,
    TRef.unary (TRef.of (T := ⟨S16384, .f32⟩) main_call0_v3) (TRef.of (T := ⟨S16384, .f32⟩) main_call0_v7) Host.absf,
    TRef.unary (TRef.of (T := ⟨S16384, .f32⟩) main_call0_v7) (TRef.of (T := ⟨S16384, .f32⟩) main_call0_v8) Host.negf,
    TRef.unary (TRef.of (T := ⟨S16384, .f32⟩) main_call0_v8) (TRef.of (T := ⟨S16384, .f32⟩) main_call0_v9) Host.exp,
    TRef.unary (TRef.of (T := ⟨S16384, .f32⟩) main_call0_v9) (TRef.of (T := ⟨S16384, .f32⟩) main_call0_v10) Host.log1p,
    TRef.binary (TRef.of (T := ⟨S16384, .f32⟩) main_call0_v1) (TRef.of (T := ⟨S16384, .f32⟩) main_call0_v10) (TRef.of (T := ⟨S16384, .f32⟩) main_call0_v11) addf,
    TRef.ternary (TRef.of (T := ⟨S16384, .i1⟩) main_call0_v4) (TRef.of (T := ⟨S16384, .f32⟩) main_call0_v6) (TRef.of (T := ⟨S16384, .f32⟩) main_call0_v11) (TRef.of (T := ⟨S16384, .f32⟩) main_v12) select,
    nullary main_cst_4 (constant S_ .f32 0x358637BD#32),
    unary main_cst_4 main_v13 (broadcastInDim S16384 ![] bcast_S_S16384 : (⟨S_, .f32⟩ : BufTy).Contents (Elt F) → (⟨S16384, .f32⟩ : BufTy).Contents (Elt F)),
    binary main_v12 main_v13 main_v14 (addf : (⟨S16384, .f32⟩ : BufTy).Contents (Elt F) → (⟨S16384, .f32⟩ : BufTy).Contents (Elt F) → (⟨S16384, .f32⟩ : BufTy).Contents (Elt F)),
    unary main_v14 main_v15 (broadcastInDim S1x16384x1 ![1] bcast_S16384_S1x16384x1_1 : (⟨S16384, .f32⟩ : BufTy).Contents (Elt F) → (⟨S1x16384x1, .f32⟩ : BufTy).Contents (Elt F)),
    nullary main_cst_5 (constant S_ .f32 0x46800000#32),
    unary main_cst_5 main_v16 (broadcastInDim S1x16384x1 ![] bcast_S_S1x16384x1 : (⟨S_, .f32⟩ : BufTy).Contents (Elt F) → (⟨S1x16384x1, .f32⟩ : BufTy).Contents (Elt F)),
    binary main_v15 main_v16 main_v17 (mulf : (⟨S1x16384x1, .f32⟩ : BufTy).Contents (Elt F) → (⟨S1x16384x1, .f32⟩ : BufTy).Contents (Elt F) → (⟨S1x16384x1, .f32⟩ : BufTy).Contents (Elt F)),
    unary main_v17 main_v18 (broadcastInDim S512x16384x2 ![0, 1, 2] bcast_S1x16384x1_S512x16384x2_0_1_2 : (⟨S1x16384x1, .f32⟩ : BufTy).Contents (Elt F) → (⟨S512x16384x2, .f32⟩ : BufTy).Contents (Elt F)),
    binary main_v18 main_arg1 main_v19 (mulf : (⟨S512x16384x2, .f32⟩ : BufTy).Contents (Elt F) → (⟨S512x16384x2, .f32⟩ : BufTy).Contents (Elt F) → (⟨S512x16384x2, .f32⟩ : BufTy).Contents (Elt F)),
    unary main_v9 main_v20 (broadcastInDim S512x16384x2 ![0, 1, 2] bcast_S1x16384x2_S512x16384x2_0_1_2 : (⟨S1x16384x2, .f32⟩ : BufTy).Contents (Elt F) → (⟨S512x16384x2, .f32⟩ : BufTy).Contents (Elt F)),
    binary main_v20 main_v19 main_v21 (addf : (⟨S512x16384x2, .f32⟩ : BufTy).Contents (Elt F) → (⟨S512x16384x2, .f32⟩ : BufTy).Contents (Elt F) → (⟨S512x16384x2, .f32⟩ : BufTy).Contents (Elt F)),
    TRef.unary (TRef.of (T := ⟨S512x16384x2, .f32⟩) main_v21) (TRef.of (T := ⟨S512x16384x2, .f32⟩) main_v22) Host.roundeven,
    unary main_v22 main_v23 (fptosi 32 : (⟨S512x16384x2, .f32⟩ : BufTy).Contents (Elt F) → (⟨S512x16384x2, .i32⟩ : BufTy).Contents (Elt F)),
    nullary main_c (constantI S_ 32 0#32),
    nullary main_c_6 (constantI S_ 32 16383#32),
    TRef.unary (TRef.of (T := ⟨S_, .i32⟩) main_c) (TRef.of (T := ⟨S_, .i32⟩) main_call2_v0) id,
    TRef.unary (TRef.of (T := ⟨S_, .i32⟩) main_call2_v0) (TRef.of (T := ⟨S512x16384x2, .i32⟩) main_call2_v1) (broadcastInDim S512x16384x2 ![] bcast_S_S512x16384x2),
    TRef.binary (TRef.of (T := ⟨S512x16384x2, .i32⟩) main_call2_v1) (TRef.of (T := ⟨S512x16384x2, .i32⟩) main_v23) (TRef.of (T := ⟨S512x16384x2, .i32⟩) main_call2_v2) maxsi,
    TRef.unary (TRef.of (T := ⟨S_, .i32⟩) main_c_6) (TRef.of (T := ⟨S_, .i32⟩) main_call2_v3) id,
    TRef.unary (TRef.of (T := ⟨S_, .i32⟩) main_call2_v3) (TRef.of (T := ⟨S512x16384x2, .i32⟩) main_call2_v4) (broadcastInDim S512x16384x2 ![] bcast_S_S512x16384x2),
    TRef.binary (TRef.of (T := ⟨S512x16384x2, .i32⟩) main_call2_v4) (TRef.of (T := ⟨S512x16384x2, .i32⟩) main_call2_v2) (TRef.of (T := ⟨S512x16384x2, .i32⟩) main_v24) minsi,
    unary main_v24 main_v25 ((extractStridedSlice S512x16384x1 ![0, 0, 0] · slices_S512x16384x2_S512x16384x1_0_0_0) : (⟨S512x16384x2, .i32⟩ : BufTy).Contents (Elt F) → (⟨S512x16384x1, .i32⟩ : BufTy).Contents (Elt F)),
    reshape main_v25 main_v26 rfl shapeCasts_S512x16384x1_S512x16384,
    unary main_v24 main_v27 ((extractStridedSlice S512x16384x1 ![0, 0, 1] · slices_S512x16384x2_S512x16384x1_0_0_1) : (⟨S512x16384x2, .i32⟩ : BufTy).Contents (Elt F) → (⟨S512x16384x1, .i32⟩ : BufTy).Contents (Elt F)),
    reshape main_v27 main_v28 rfl shapeCasts_S512x16384x1_S512x16384 ]

/-- The last 48 operations: the gather along the columns, the products, the scatter-add along the rows. -/
abbrev opsB : List (HloOp τ sig (Elt F)) :=
  [ unary main_arg4 main_v29 (broadcastInDim S1x16384 ![1] bcast_S16384_S1x16384_1 : (⟨S16384, .f32⟩ : BufTy).Contents (Elt F) → (⟨S1x16384, .f32⟩ : BufTy).Contents (Elt F)),
    unary main_v29 main_v30 (broadcastInDim S512x16384 ![0, 1] bcast_S1x16384_S512x16384_0_1 : (⟨S1x16384, .f32⟩ : BufTy).Contents (Elt F) → (⟨S512x16384, .f32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S512x16384, .i32⟩) main_call3_v0) (broadcastInDim S512x16384 ![] bcast_S_S512x16384),
    TRef.binary (TRef.of (T := ⟨S512x16384, .i32⟩) main_v28) (TRef.of (T := ⟨S512x16384, .i32⟩) main_call3_v0) (TRef.of (T := ⟨S512x16384, .i1⟩) main_call3_v1) (cmpi .slt),
    TRef.nullary (TRef.of (T := ⟨S_, .i32⟩) main_call3_c_0) (constantI S_ 32 16384#32),
    TRef.unary (TRef.of (T := ⟨S_, .i32⟩) main_call3_c_0) (TRef.of (T := ⟨S512x16384, .i32⟩) main_call3_v2) (broadcastInDim S512x16384 ![] bcast_S_S512x16384),
    TRef.binary (TRef.of (T := ⟨S512x16384, .i32⟩) main_v28) (TRef.of (T := ⟨S512x16384, .i32⟩) main_call3_v2) (TRef.of (T := ⟨S512x16384, .i32⟩) main_call3_v3) addi,
    TRef.ternary (TRef.of (T := ⟨S512x16384, .i1⟩) main_call3_v1) (TRef.of (T := ⟨S512x16384, .i32⟩) main_call3_v3) (TRef.of (T := ⟨S512x16384, .i32⟩) main_v28) (TRef.of (T := ⟨S512x16384, .i32⟩) main_call3_v4) select,
    TRef.reshape (TRef.of (T := ⟨S512x16384, .i32⟩) main_call3_v4) (TRef.of (T := ⟨S512x16384x1, .i32⟩) main_call3_v5) rfl shapeCasts_S512x16384_S512x16384x1,
    TRef.nullary (TRef.of (T := ⟨S1, .i32⟩) main_call3_c_1) (constantI S1 32 16383#32),
    TRef.nullary (TRef.of (T := ⟨S_, .i32⟩) main_call3_c_2) (constantI S_ 32 0#32),
    TRef.unary (TRef.of (T := ⟨S_, .i32⟩) main_call3_c_2) (TRef.of (T := ⟨S512x16384x1, .i32⟩) main_call3_v6) (broadcastInDim S512x16384x1 ![] bcast_S_S512x16384x1),
    TRef.binary (TRef.of (T := ⟨S512x16384x1, .i32⟩) main_call3_v5) (TRef.of (T := ⟨S512x16384x1, .i32⟩) main_call3_v6) (TRef.of (T := ⟨S512x16384x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S512x16384x1, .i32⟩) main_call3_v9) (broadcastInDim S512x16384x1 ![0, 1, 2] bcast_S1x1x1_S512x16384x1_0_1_2),
    TRef.binary (TRef.of (T := ⟨S512x16384x1, .i32⟩) main_call3_v5) (TRef.of (T := ⟨S512x16384x1, .i32⟩) main_call3_v9) (TRef.of (T := ⟨S512x16384x1, .i1⟩) main_call3_v10) (cmpi .sle),
    TRef.binary (TRef.of (T := ⟨S512x16384x1, .i1⟩) main_call3_v7) (TRef.of (T := ⟨S512x16384x1, .i1⟩) main_call3_v10) (TRef.of (T := ⟨S512x16384x1, .i1⟩) main_call3_v11) andi,
    TRef.nullary (TRef.of (T := ⟨S_, .i1⟩) main_call3_c_3) (constantI S_ 1 1#1),
    TRef.binary (TRef.of (T := ⟨S512x16384x1, .i1⟩) main_call3_v11) (TRef.of (T := ⟨S_, .i1⟩) main_call3_c_3) (TRef.of (T := ⟨S512x16384, .i1⟩) main_call3_v12) (fun x v => Host.reduce IntOp.andi x v reducesTo_S512x16384x1_S512x16384_d2 h_S_),
    TRef.binary (TRef.of (T := ⟨S512x16384, .f32⟩) main_arg0) (TRef.of (T := ⟨S512x16384x1, .i32⟩) main_call3_v5) (TRef.of (T := ⟨S512x16384, .f32⟩) main_call3_v13) (fun x i => Host.gather gather_S512x16384_S512x16384x1_S512x16384_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S512x16384, .f32⟩) main_call3_v14) (broadcastInDim S512x16384 ![] bcast_S_S512x16384),
    TRef.ternary (TRef.of (T := ⟨S512x16384, .i1⟩) main_call3_v12) (TRef.of (T := ⟨S512x16384, .f32⟩) main_call3_v13) (TRef.of (T := ⟨S512x16384, .f32⟩) main_call3_v14) (TRef.of (T := ⟨S512x16384, .f32⟩) main_v31) select,
    binary main_v30 main_v31 main_v32 (mulf : (⟨S512x16384, .f32⟩ : BufTy).Contents (Elt F) → (⟨S512x16384, .f32⟩ : BufTy).Contents (Elt F) → (⟨S512x16384, .f32⟩ : BufTy).Contents (Elt F)),
    nullary main_cst_7 (constant S_ .f32 0x00000000#32),
    unary main_cst_7 main_v33 (broadcastInDim S512x16384 ![] bcast_S_S512x16384 : (⟨S_, .f32⟩ : BufTy).Contents (Elt F) → (⟨S512x16384, .f32⟩ : BufTy).Contents (Elt F)),
    nullary main_v34 (iotaInDim S512 32 0),
    unary main_v34 main_v35 (broadcastInDim S512x1 ![0] bcast_S512_S512x1_0 : (⟨S512, .i32⟩ : BufTy).Contents (Elt F) → (⟨S512x1, .i32⟩ : BufTy).Contents (Elt F)),
    nullary main_c_8 (constantI S_ 32 0#32),
    unary main_c_8 main_v36 (broadcastInDim S512x1 ![] bcast_S_S512x1 : (⟨S_, .i32⟩ : BufTy).Contents (Elt F) → (⟨S512x1, .i32⟩ : BufTy).Contents (Elt F)),
    binary main_v35 main_v36 main_v37 (cmpi .slt : (⟨S512x1, .i32⟩ : BufTy).Contents (Elt F) → (⟨S512x1, .i32⟩ : BufTy).Contents (Elt F) → (⟨S512x1, .i1⟩ : BufTy).Contents (Elt F)),
    nullary main_c_9 (constantI S_ 32 512#32),
    unary main_c_9 main_v38 (broadcastInDim S512x1 ![] bcast_S_S512x1 : (⟨S_, .i32⟩ : BufTy).Contents (Elt F) → (⟨S512x1, .i32⟩ : BufTy).Contents (Elt F)),
    binary main_v35 main_v38 main_v39 (addi : (⟨S512x1, .i32⟩ : BufTy).Contents (Elt F) → (⟨S512x1, .i32⟩ : BufTy).Contents (Elt F) → (⟨S512x1, .i32⟩ : BufTy).Contents (Elt F)),
    ternary main_v37 main_v39 main_v35 main_v40 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    nullary main_c_10 (constantI S_ 32 0#32),
    unary main_c_10 main_v41 (broadcastInDim S512x16384 ![] bcast_S_S512x16384 : (⟨S_, .i32⟩ : BufTy).Contents (Elt F) → (⟨S512x16384, .i32⟩ : BufTy).Contents (Elt F)),
    binary main_v26 main_v41 main_v42 (cmpi .slt : (⟨S512x16384, .i32⟩ : BufTy).Contents (Elt F) → (⟨S512x16384, .i32⟩ : BufTy).Contents (Elt F) → (⟨S512x16384, .i1⟩ : BufTy).Contents (Elt F)),
    nullary main_c_11 (constantI S_ 32 16384#32),
    unary main_c_11 main_v43 (broadcastInDim S512x16384 ![] bcast_S_S512x16384 : (⟨S_, .i32⟩ : BufTy).Contents (Elt F) → (⟨S512x16384, .i32⟩ : BufTy).Contents (Elt F)),
    binary main_v26 main_v43 main_v44 (addi : (⟨S512x16384, .i32⟩ : BufTy).Contents (Elt F) → (⟨S512x16384, .i32⟩ : BufTy).Contents (Elt F) → (⟨S512x16384, .i32⟩ : BufTy).Contents (Elt F)),
    ternary main_v42 main_v44 main_v26 main_v45 (select : (⟨S512x16384, .i1⟩ : BufTy).Contents (Elt F) → (⟨S512x16384, .i32⟩ : BufTy).Contents (Elt F) → (⟨S512x16384, .i32⟩ : BufTy).Contents (Elt F) → (⟨S512x16384, .i32⟩ : BufTy).Contents (Elt F)),
    unary main_v40 main_v46 (broadcastInDim S512x16384 ![0, 1] bcast_S512x1_S512x16384_0_1 : (⟨S512x1, .i32⟩ : BufTy).Contents (Elt F) → (⟨S512x16384, .i32⟩ : BufTy).Contents (Elt F)),
    unary main_v46 main_v47 (broadcastInDim S512x16384x1 ![0, 1] bcast_S512x16384_S512x16384x1_0_1 : (⟨S512x16384, .i32⟩ : BufTy).Contents (Elt F) → (⟨S512x16384x1, .i32⟩ : BufTy).Contents (Elt F)),
    unary main_v45 main_v48 (broadcastInDim S512x16384x1 ![0, 1] bcast_S512x16384_S512x16384x1_0_1 : (⟨S512x16384, .i32⟩ : BufTy).Contents (Elt F) → (⟨S512x16384x1, .i32⟩ : BufTy).Contents (Elt F)),
    binary main_v47 main_v48 main_v49 ((fun a b => concatenate S512x16384x2 2 [⟨S512x16384x1, a⟩, ⟨S512x16384x1, b⟩] concatenates_S512x16384x1_S512x16384x1_S512x16384x2_d2) : (⟨S512x16384x1, .i32⟩ : BufTy).Contents (Elt F) → (⟨S512x16384x1, .i32⟩ : BufTy).Contents (Elt F) → (⟨S512x16384x2, .i32⟩ : BufTy).Contents (Elt F)),
    ternary main_v33 main_v49 main_v32 main_v50 ((fun x i u => Host.scatterAdd scatter_S512x16384_S512x16384x2_S512x16384_n_01_01_2 x i u) : (⟨S512x16384, .f32⟩ : BufTy).Contents (Elt F) → (⟨S512x16384x2, .i32⟩ : BufTy).Contents (Elt F) → (⟨S512x16384, .f32⟩ : BufTy).Contents (Elt F) → (⟨S512x16384, .f32⟩ : BufTy).Contents (Elt F)) ]

/-- The program's line is the two stages one after the other. -/
theorem ops_split : (Cert.ReferenceIdeal.ValueP.ops (F := F)) = opsA ++ opsB := rfl

/-- Running two lines one after the other is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 4000000 in
/-- After the first stage the rows' buffer holds the rows' stage of the noise, the location and the scale parameters. -/
theorem rows_stage (V : Valuation τ sig (Elt Ideal)) :
    after (opsA (F := Ideal)) V (Proc.devRef .tc main_v26)
      = Cert.ReferenceIdeal.ReadP.val_main_v26 (F := Ideal) (V (Proc.devRef .tc main_arg1)) (V (Proc.devRef .tc main_arg2))
          (V (Proc.devRef .tc main_arg3)) := by
  after_results_simp
  rfl

set_option maxRecDepth 8192 in
set_option maxHeartbeats 4000000 in
/-- After the first stage the columns' buffer holds the columns' stage of the same three arrays. -/
theorem cols_stage (V : Valuation τ sig (Elt Ideal)) :
    after (opsA (F := Ideal)) V (Proc.devRef .tc main_v28)
      = Cert.ReferenceIdeal.ReadP.val_main_v28 (F := Ideal) (V (Proc.devRef .tc main_arg1)) (V (Proc.devRef .tc main_arg2))
          (V (Proc.devRef .tc main_arg3)) := by
  after_results_simp
  rfl

set_option maxRecDepth 8192 in
/-- The first stage writes neither the input x nor the per-position values. -/
theorem keepsA (V : Valuation τ sig (Elt Ideal)) :
    after (opsA (F := Ideal)) V (Proc.devRef .tc main_arg0) = V (Proc.devRef .tc main_arg0)
    ∧ after (opsA (F := Ideal)) V (Proc.devRef .tc main_arg4) = V (Proc.devRef .tc main_arg4) := by
  constructor <;> after_results_simp

/-- Reading back, at a value's type, what was written through the same typed reference gives the value. -/
theorem ofBuf_toBuf {T : BufTy} (x : TRef sig T) (v : T.Contents (Elt Ideal)) : x.ofBuf (x.toBuf v) = v := by
  unfold TRef.ofBuf TRef.toBuf
  rw [cast_cast]
  exact cast_eq _ _

/-- At a literal buffer the typed reference's type IS the buffer's: reading or writing through it changes nothing. -/
theorem ofBuf_v28 (v : (Proc.devRef (τ := τ) .tc main_v28).ty.Contents (Elt Ideal)) :
    (TRef.of (sig := sig) (T := ⟨S512x16384, .i32⟩) main_v28).ofBuf v = v := rfl
theorem ofBuf_arg0 (v : (Proc.devRef (τ := τ) .tc main_arg0).ty.Contents (Elt Ideal)) :
    (TRef.of (sig := sig) (T := ⟨S512x16384, .f32⟩) main_arg0).ofBuf v = v := rfl
theorem ofBuf_call3_v5 (v : (Proc.devRef (τ := τ) .tc main_call3_v5).ty.Contents (Elt Ideal)) :
    (TRef.of (sig := sig) (T := ⟨S512x16384x1, .i32⟩) main_call3_v5).ofBuf v = v := rfl
theorem toBuf_call3_v4 (v : (⟨S512x16384, .i32⟩ : BufTy).Contents (Elt Ideal)) :
    (TRef.of (sig := sig) (T := ⟨S512x16384, .i32⟩) main_call3_v4).toBuf v = v := rfl
theorem toBuf_v31 (v : (⟨S512x16384, .f32⟩ : BufTy).Contents (Elt Ideal)) :
    (TRef.of (sig := sig) (T := ⟨S512x16384, .f32⟩) main_v31).toBuf v = v := rfl

/-- The operation that lays the two [512, 16384, 1] index columns side by side leaves `pair` of what its operands hold. -/
theorem concat_result (G : Valuation τ sig (Elt Ideal)) :
    (binary main_v47 main_v48 main_v49
        ((fun a b => concatenate S512x16384x2 2 [⟨S512x16384x1, a⟩, ⟨S512x16384x1, b⟩]
            concatenates_S512x16384x1_S512x16384x1_S512x16384x2_d2) :
          (⟨S512x16384x1, .i32⟩ : BufTy).Contents (Elt Ideal) → (⟨S512x16384x1, .i32⟩ : BufTy).Contents (Elt Ideal) →
            (⟨S512x16384x2, .i32⟩ : BufTy).Contents (Elt Ideal))).result G (no_index (Proc.devRef .tc main_v49))
      = Cert.KernelIdeal.IndexTail.pair (G (Proc.devRef .tc main_v47)) (G (Proc.devRef .tc main_v48)) :=
  binary_result _ _ _ _ _ _ _ G

set_option maxRecDepth 32768 in
set_option maxHeartbeats 8000000 in
/-- The second stage, from any contents, leaves the contraction of what the contents hold at the input, the values
    and the two index arrays. -/
theorem after_tail (W : Valuation τ sig (Elt Ideal)) (x : FVec Ideal S512x16384 .f32) (pv : FVec Ideal S16384 .f32)
    (R C : IVec S512x16384 32)
    (hx : W (Proc.devRef .tc main_arg0) = x) (hp : W (Proc.devRef .tc main_arg4) = pv)
    (hR : W (Proc.devRef .tc main_v26) = R) (hC : W (Proc.devRef .tc main_v28) = C) :
    after (opsB (F := Ideal)) W (Proc.devRef .tc main_v50) = Cert.KernelIdeal.IndexTail.tail x pv R C := by
  subst hx hp hR hC
  simp (disch := decide) only [after_cons, after_nil,
    nullary_result', unary_result', binary_result', ternary_result', quaternary_result', reshape_result', nary4_result',
    nary_result', unaryIndexed_result', binaryIndexed_result',
    nullary_result_ne', unary_result_ne', binary_result_ne', ternary_result_ne', quaternary_result_ne', reshape_result_ne',
    nary_result_ne', unaryIndexed_result_ne', binaryIndexed_result_ne', ↓ concat_result,
    ofBuf_toBuf, ofBuf_v28, ofBuf_arg0, ofBuf_call3_v5, toBuf_call3_v4, toBuf_v31]
  rfl

set_option maxRecDepth 8192 in
/-- No operation of the line writes an argument. -/
theorem keeps (V : Valuation τ sig (Elt Ideal)) :
    after (Cert.ReferenceIdeal.ValueP.ops (F := Ideal)) V (Proc.devRef .tc main_arg0) = V (Proc.devRef .tc main_arg0)
    ∧ after (Cert.ReferenceIdeal.ValueP.ops (F := Ideal)) V (Proc.devRef .tc main_arg1) = V (Proc.devRef .tc main_arg1)
    ∧ after (Cert.ReferenceIdeal.ValueP.ops (F := Ideal)) V (Proc.devRef .tc main_arg2) = V (Proc.devRef .tc main_arg2)
    ∧ after (Cert.ReferenceIdeal.ValueP.ops (F := Ideal)) V (Proc.devRef .tc main_arg3) = V (Proc.devRef .tc main_arg3)
    ∧ after (Cert.ReferenceIdeal.ValueP.ops (F := Ideal)) V (Proc.devRef .tc main_arg4) = V (Proc.devRef .tc main_arg4) := by
  refine ⟨?_, ?_, ?_, ?_, ?_⟩ <;> after_results_simp

/-- The whole line's result: the contraction of x and the values along the two slices of the index array. -/
theorem result_eq (V : Valuation τ sig (Elt Ideal)) :
    after (Cert.ReferenceIdeal.ValueP.ops (F := Ideal)) V (Proc.devRef .tc main_v50)
      = Cert.KernelIdeal.IndexTail.tail (V (Proc.devRef .tc main_arg0)) (V (Proc.devRef .tc main_arg4))
          (Cert.ReferenceIdeal.ReadP.val_main_v26 (F := Ideal) (V (Proc.devRef .tc main_arg1)) (V (Proc.devRef .tc main_arg2)) (V (Proc.devRef .tc main_arg3)))
          (Cert.ReferenceIdeal.ReadP.val_main_v28 (F := Ideal) (V (Proc.devRef .tc main_arg1)) (V (Proc.devRef .tc main_arg2)) (V (Proc.devRef .tc main_arg3))) := by
  rw [ops_split, after_append]
  exact after_tail _ _ _ _ _ (keepsA V).1 (keepsA V).2 (rows_stage V) (cols_stage V)

/-- THE RUN: every weakly fair execution of the reference terminates with its result at the contraction along its two
    slices, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50)
          = Cert.KernelIdeal.IndexTail.tail (m ((c.tc : Thread nD τ).loc main_arg0)) (m ((c.tc : Thread nD τ).loc main_arg4))
              (Cert.ReferenceIdeal.ReadP.val_main_v26 (F := Ideal) (m ((c.tc : Thread nD τ).loc main_arg1)) (m ((c.tc : Thread nD τ).loc main_arg2)) (m ((c.tc : Thread nD τ).loc main_arg3)))
              (Cert.ReferenceIdeal.ReadP.val_main_v28 (F := Ideal) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v50).trans (result_eq (launchContents m c)),
      (h c main_arg0).trans (keeps (launchContents m c)).1,
      (h c main_arg1).trans (keeps (launchContents m c)).2.1,
      (h c main_arg2).trans (keeps (launchContents m c)).2.2.1,
      (h c main_arg3).trans (keeps (launchContents m c)).2.2.2.1,
      (h c main_arg4).trans (keeps (launchContents m c)).2.2.2.2⟩)
    (Cert.ReferenceIdeal.ValueP.run_ops (F := Ideal) m ρ)

end Cert.ReferenceIdeal.Stages

end
-- ==== Proof.lean ====
/-
  Two programs that scatter-add  pvalues[n] · x[b, cols[b,n]]  into  y[b, rows[b,n]]  compute the same y.

  Both draw the index pairs the same way: for batch row b, position n and component k the sample
  sigmoid(pmeans[n,k]) · 16383 + (softplus(psigmas[n] + 2) + ε) · 16384 · noise[b,n,k] is rounded to the nearest
  integer (ties to even), converted to a 32-bit integer and clamped into [0, 16383]; component 0 is the row added
  into, component 1 the column read. One program computes the two [512, 16384] index arrays block by block — 32 batch
  rows at each of 16 grid points, from the noise and the location parameters transposed so that the position is the
  last axis — and the other computes one [512, 16384, 2] array on the host and slices it. On the extended reals the
  two spellings of the sample are one number: the sigmoid is 1 / (1 + e^(-p)) by definition, 16384 - 1 is 16383, no
  pair of numbers is unordered, and 0 - a is -a. So the two pairs of index arrays are equal, entry by entry
  (`SampleIndex.rows`, `SampleIndex.cols`), and both programs then apply one and the same contraction to them
  (`IndexTail.tail`), which is never opened. No precondition is used for the values.
-/
import proofs.«145662_j39213051413051_2_alg».proof.Defs
import proofs.«145662_j39213051413051_2_alg».proof.Proof.Gen.Kernel
import proofs.«145662_j39213051413051_2_alg».proof.Proof.Gen.Kernel.Frame
import proofs.«145662_j39213051413051_2_alg».proof.Proof.Gen.KernelIdeal
import proofs.«145662_j39213051413051_2_alg».proof.Proof.Gen.KernelIdeal.Frame
import proofs.«145662_j39213051413051_2_alg».proof.Proof.Gen.ReferenceIdeal
import proofs.«145662_j39213051413051_2_alg».proof.Proof.Gen.Pre_finite_inputs
import proofs.«145662_j39213051413051_2_alg».proof.Proof.SampleIndex
import proofs.«145662_j39213051413051_2_alg».proof.Proof.IndexTail
import proofs.«145662_j39213051413051_2_alg».proof.Proof.KernelArrays
import proofs.«145662_j39213051413051_2_alg».proof.Proof.KernelTail
import proofs.«145662_j39213051413051_2_alg».proof.Proof.RefIndices
import proofs.«145662_j39213051413051_2_alg».proof.Proof.RefStages
import Idealize.ShloMosaic.Adequacy
import Idealize.ShloMosaic.Init

noncomputable section

namespace Cert.Proof

open Idealize.ShloMosaic Idealize.ShloMosaic.TcCoe Idealize.SL.Sem

/-! ## The three programs run and keep their arguments -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Stages.run m ρ)

/-- The idealized kernel program is the kernel program's own text read on the extended reals: nothing was rewritten. -/
theorem preserves : Cert.preserves_Kernel_KernelIdeal := trivial

/-! ## The results -/

section
open Cert.KernelIdeal Cert.KernelIdeal.Gen

/-- The kernel program's run: its result is the contraction along the specification's index arrays. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v24)
          = Cert.KernelIdeal.IndexTail.tail (m ((c.tc : Thread nD τ).loc main_arg0)) (m ((c.tc : Thread nD τ).loc main_arg4))
              (Cert.SampleIndex.rows (m ((c.tc : Thread nD τ).loc main_arg1)) (m ((c.tc : Thread nD τ).loc main_arg2)) (m ((c.tc : Thread nD τ).loc main_arg3)))
              (Cert.SampleIndex.cols (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v24 (Pipeline.mem_restRefs_of main_v24 (by decide) (by decide))).trans
        ((Cert.KernelIdeal.Tail.kernel_tail m c).trans
          (by rw [Cert.KernelIdeal.Arrays.rows_final m c, Cert.KernelIdeal.Arrays.cols_final m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end

/-- From memories that agree on the five arguments both programs end with the same y. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Stages.run m' ρ')
  rw [Cert.ReferenceIdeal.Indices.ref_rows, Cert.ReferenceIdeal.Indices.ref_cols,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
